-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S512x256 : Shape := ⟨2, ![512, 256]⟩
abbrev S1024x256 : Shape := ⟨2, ![1024, 256]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S1024 : Shape := ⟨1, ![1024]⟩
abbrev S1024x1 : Shape := ⟨2, ![1024, 1]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_34 : BitVec 32 := 0#32
  let v69 : BitVec 1 := Scalar.cmpi .ne v68 c0_i32_34
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S512x256_S512 : S512x256.Reduces [1] S512
  shapeCasts_S512_S512x1 : S512.ShapeCasts S512x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  natLt_1_32 : 1 < 32
  reduces_S512x1024_S512 : S512x1024.Reduces [1] S512
  reducesTo_S8192x1_S_d0_1 : S8192x1.ReducesTo [0, 1] S_
  h_S_ : 0 < S_.numel
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FrameKernelCommon.lean ====
/-
  What the three case runs of the kernel body and the launch share, at any float instance.

  The program is: two reshapes of the label vector (a column view and a row view), one pipelined region over a
  16 × 8 grid, then the mean of the region's 8192 × 1 result. At grid point (i, j) the body sees row tile i of the data
  (512 rows) and column tile j (1024 rows of the same array), the labels of both tiles, one output block and four scratch
  columns that it carries from point to point: it clears them where j = 0, adds this tile's four partial row sums
  everywhere, and where j = 7 turns them into the output block. So there are three kinds of point, told apart by the
  point's position modulo 8: first of a row (0), interior (1–6), last of a row (7).

  Here: the buffers as the region finds them (after the two reshapes), each window's block read off its array, the two
  branch conditions in closed form over the grid, where the output window is idle, and names for the staging and
  scratch memrefs the body is called with.
-/
import proofs.«157812_j86157043958222_1_alg».proof.Proof.Gen.Kernel.Launch
import proofs.«157812_j86157043958222_1_alg».proof.Proof.Gen.Kernel.Skeleton
import proofs.«157812_j86157043958222_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two reshapes, the region, and the four operations of the mean: it reduces to the region
    continued by the mean, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or an
    earlier one did (the block index has not moved since), for any proof data over `V` that leaves inputs in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column tile of its row": the body's first `if`, from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile of its row": the body's second `if`. -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a row's last column tile the body stores nothing into the output block, and the block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a row's last column tile the output block is stored. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S512x1 .f32 := (Memref.whole cc0_stg4_0 : Memref sig .tc .vmem S512x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The four scratch columns: whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- A scratch column as a view: what it holds is stated through it (the four have one shape and one layout). -/
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- What the launch hands the body beside the windows: the four scratch columns at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.FrameKernelRunA.lean ====
/-
  The body's run at the first column tile of a row, at any float instance.

  From the four input blocks at their contents, the output block at whatever it holds (handed back untouched) and the
  four scratch columns at ANY contents, the body runs to the end holding the inputs as they were and each scratch column
  with two whole-column stores written: first zero, then zero plus this tile's partial row sum. The stores are found by
  running the body; they are the witness.
-/
import proofs.«157812_j86157043958222_1_alg».proof.Proof.FrameKernelCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the first point of a row leaves in the four scratch columns (last first), with the proof that the body
    runs to the continuation holding exactly them. -/
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Fr

end
-- ==== Proof.FrameKernelRunB.lean ====
/-
  The body's run at an interior point of a row (neither the first nor the last column tile), at any float instance.

  From the four input blocks at their contents, the output block at whatever it holds (handed back untouched) and the
  four scratch columns at what the point before left, the body runs to the end holding the inputs as they were and each
  scratch column with one whole-column store written: the column plus this tile's partial row sum. The stores are found
  by running the body; they are the witness.
-/
import proofs.«157812_j86157043958222_1_alg».proof.Proof.FrameKernelCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores an interior point leaves in the four scratch columns (last first), with the proof that the body runs to
    the continuation holding exactly them. -/
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Fr

end
-- ==== Proof.FrameKernelRunC.lean ====
/-
  The body's run at the last column tile of a row, at any float instance.

  From the four input blocks at their contents, the output block at ANY contents and the four scratch columns at what the
  point before left, the body runs to the end holding the inputs as they were, each scratch column with one whole-column
  store written (the column plus this tile's partial row sum) and the output block with one whole-block store written: the
  row's margin loss computed from the four completed columns. The stores are found by running the body; they are the witness.
-/
import proofs.«157812_j86157043958222_1_alg».proof.Proof.FrameKernelCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the last point of a row leaves in the output block and the four scratch columns (last first), with the
    proof that the body runs to the continuation holding exactly them. -/
noncomputable def kernelRun0_C (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Fr

end
-- ==== Proof.FrameKernelSteps.lean ====
/-
  Each of the three case runs taken at a grid point `t`: on the staging memrefs the pipeline is on at `t`, the four
  scratch columns, and the four input blocks read off the arrays as the region finds them; what the run leaves in the
  output block and in the four scratch columns (its stores read back), and that those stores cover each buffer.
  A point's kind is told by its position modulo 8 (the closed forms of the two branch conditions).
-/
import proofs.«157812_j86157043958222_1_alg».proof.Proof.FrameKernelRunA
import proofs.«157812_j86157043958222_1_alg».proof.Proof.FrameKernelRunB
import proofs.«157812_j86157043958222_1_alg».proof.Proof.FrameKernelRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four scratch columns hold (in order). -/
abbrev Scr (F : FTy → Type) [FloatOps F] : Type := Vec F S512x1 .f32 × Vec F S512x1 .f32 × Vec F S512x1 .f32 × Vec F S512x1 .f32
/-- What the output block and the four scratch columns hold. -/
abbrev Outs (F : FTy → Type) [FloatOps F] : Type := Vec F S512x1 .f32 × Scr F

/-- The run at the first column tile of a row, taken at point `t`. -/
def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
/-- The run at an interior column tile, taken at point `t` over the scratch contents `s` the point before left. -/
def runB (c : Dev nD) (t : Fin cfg0.N) (h0 : ¬t.val % 8 = 0) (h1 : ¬t.val % 8 = 7) (s : Scr F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) s.1 s.2.1 s.2.2.1 s.2.2.2
/-- The run at the last column tile of a row, taken at point `t` over the scratch contents `s` the point before left. -/
def runC (c : Dev nD) (t : Fin cfg0.N) (h0 : ¬t.val % 8 = 0) (h1 : t.val % 8 = 7) (s : Scr F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) s.1 s.2.1 s.2.2.1 s.2.2.2

/-- The output block where the body stores nothing into it: a placeholder nothing consults (the block is neither written
    back there nor read at the next point). -/
def outIdle : Vec F S512x1 .f32 := VO0_4.read (Elt F) (VO0_4.writes (Elt F) VO0_4.junk [])

/-- What the first point of a row leaves. -/
def stepA (c : Dev nD) (t : Fin cfg0.N) (h0 : t.val % 8 = 0) (h1 : ¬t.val % 8 = 7) : Outs F :=
  (outIdle, VS0_0.read (Elt F) (VS0_0.writes (Elt F) VS0_0.junk (runA m c t h0 h1).1), VS0_1.read (Elt F) (VS0_1.writes (Elt F) VS0_1.junk (runA m c t h0 h1).2.1), VS0_2.read (Elt F) (VS0_2.writes (Elt F) VS0_2.junk (runA m c t h0 h1).2.2.1), VS0_3.read (Elt F) (VS0_3.writes (Elt F) VS0_3.junk (runA m c t h0 h1).2.2.2.1))
/-- What an interior point leaves, over `s`. -/
def stepB (c : Dev nD) (t : Fin cfg0.N) (h0 : ¬t.val % 8 = 0) (h1 : ¬t.val % 8 = 7) (s : Scr F) : Outs F :=
  (outIdle, VS0_0.read (Elt F) (VS0_0.writes (Elt F) VS0_0.junk (runB m c t h0 h1 s).1), VS0_1.read (Elt F) (VS0_1.writes (Elt F) VS0_1.junk (runB m c t h0 h1 s).2.1), VS0_2.read (Elt F) (VS0_2.writes (Elt F) VS0_2.junk (runB m c t h0 h1 s).2.2.1), VS0_3.read (Elt F) (VS0_3.writes (Elt F) VS0_3.junk (runB m c t h0 h1 s).2.2.2.1))
/-- What the last point of a row leaves, over `s`. -/
def stepC (c : Dev nD) (t : Fin cfg0.N) (h0 : ¬t.val % 8 = 0) (h1 : t.val % 8 = 7) (s : Scr F) : Outs F :=
  (VO0_4.read (Elt F) (VO0_4.writes (Elt F) VO0_4.junk (runC m c t h0 h1 s).1), VS0_0.read (Elt F) (VS0_0.writes (Elt F) VS0_0.junk (runC m c t h0 h1 s).2.1), VS0_1.read (Elt F) (VS0_1.writes (Elt F) VS0_1.junk (runC m c t h0 h1 s).2.2.1), VS0_2.read (Elt F) (VS0_2.writes (Elt F) VS0_2.junk (runC m c t h0 h1 s).2.2.2.1), VS0_3.read (Elt F) (VS0_3.writes (Elt F) VS0_3.junk (runC m c t h0 h1 s).2.2.2.2.1))

/-! ## The stores cover the buffers (each buffer is stored whole) -/

theorem scoverA_0 (c : Dev nD) (t : Fin cfg0.N) (h0 : t.val % 8 = 0) (h1 : ¬t.val % 8 = 7) (y : S512x1.Idx) : ∃ pc ∈ (runA (F := F) m c t h0 h1).1, y ∈ pc.1.set :=
  View.cover_of_tiledL (runA (F := F) m c t h0 h1).1 S512x1.size (by unfold runA; sl_kernel_rfl) y
theorem scoverA_1 (c : Dev nD) (t : Fin cfg0.N) (h0 : t.val % 8 = 0) (h1 : ¬t.val % 8 = 7) (y : S512x1.Idx) : ∃ pc ∈ (runA (F := F) m c t h0 h1).2.1, y ∈ pc.1.set :=
  View.cover_of_tiledL (runA (F := F) m c t h0 h1).2.1 S512x1.size (by unfold runA; sl_kernel_rfl) y
theorem scoverA_2 (c : Dev nD) (t : Fin cfg0.N) (h0 : t.val % 8 = 0) (h1 : ¬t.val % 8 = 7) (y : S512x1.Idx) : ∃ pc ∈ (runA (F := F) m c t h0 h1).2.2.1, y ∈ pc.1.set :=
  View.cover_of_tiledL (runA (F := F) m c t h0 h1).2.2.1 S512x1.size (by unfold runA; sl_kernel_rfl) y
theorem scoverA_3 (c : Dev nD) (t : Fin cfg0.N) (h0 : t.val % 8 = 0) (h1 : ¬t.val % 8 = 7) (y : S512x1.Idx) : ∃ pc ∈ (runA (F := F) m c t h0 h1).2.2.2.1, y ∈ pc.1.set :=
  View.cover_of_tiledL (runA (F := F) m c t h0 h1).2.2.2.1 S512x1.size (by unfold runA; sl_kernel_rfl) y

theorem scoverB_0 (c : Dev nD) (t : Fin cfg0.N) (h0 : ¬t.val % 8 = 0) (h1 : ¬t.val % 8 = 7) (s : Scr F) (y : S512x1.Idx) : ∃ pc ∈ (runB m c t h0 h1 s).1, y ∈ pc.1.set :=
  View.cover_of_tiledL (runB m c t h0 h1 s).1 S512x1.size (by unfold runB; sl_kernel_rfl) y
theorem scoverB_1 (c : Dev nD) (t : Fin cfg0.N) (h0 : ¬t.val % 8 = 0) (h1 : ¬t.val % 8 = 7) (s : Scr F) (y : S512x1.Idx) : ∃ pc ∈ (runB m c t h0 h1 s).2.1, y ∈ pc.1.set :=
  View.cover_of_tiledL (runB m c t h0 h1 s).2.1 S512x1.size (by unfold runB; sl_kernel_rfl) y
theorem scoverB_2 (c : Dev nD) (t : Fin cfg0.N) (h0 : ¬t.val % 8 = 0) (h1 : ¬t.val % 8 = 7) (s : Scr F) (y : S512x1.Idx) : ∃ pc ∈ (runB m c t h0 h1 s).2.2.1, y ∈ pc.1.set :=
  View.cover_of_tiledL (runB m c t h0 h1 s).2.2.1 S512x1.size (by unfold runB; sl_kernel_rfl) y
theorem scoverB_3 (c : Dev nD) (t : Fin cfg0.N) (h0 : ¬t.val % 8 = 0) (h1 : ¬t.val % 8 = 7) (s : Scr F) (y : S512x1.Idx) : ∃ pc ∈ (runB m c t h0 h1 s).2.2.2.1, y ∈ pc.1.set :=
  View.cover_of_tiledL (runB m c t h0 h1 s).2.2.2.1 S512x1.size (by unfold runB; sl_kernel_rfl) y

theorem coverC_4 (c : Dev nD) (t : Fin cfg0.N) (h0 : ¬t.val % 8 = 0) (h1 : t.val % 8 = 7) (s : Scr F) (y : S512x1.Idx) : ∃ pc ∈ (runC m c t h0 h1 s).1, y ∈ pc.1.set :=
  View.cover_of_tiledL (runC m c t h0 h1 s).1 S512x1.size (by unfold runC; sl_kernel_rfl) y
theorem scoverC_0 (c : Dev nD) (t : Fin cfg0.N) (h0 : ¬t.val % 8 = 0) (h1 : t.val % 8 = 7) (s : Scr F) (y : S512x1.Idx) : ∃ pc ∈ (runC m c t h0 h1 s).2.1, y ∈ pc.1.set :=
  View.cover_of_tiledL (runC m c t h0 h1 s).2.1 S512x1.size (by unfold runC; sl_kernel_rfl) y
theorem scoverC_1 (c : Dev nD) (t : Fin cfg0.N) (h0 : ¬t.val % 8 = 0) (h1 : t.val % 8 = 7) (s : Scr F) (y : S512x1.Idx) : ∃ pc ∈ (runC m c t h0 h1 s).2.2.1, y ∈ pc.1.set :=
  View.cover_of_tiledL (runC m c t h0 h1 s).2.2.1 S512x1.size (by unfold runC; sl_kernel_rfl) y
theorem scoverC_2 (c : Dev nD) (t : Fin cfg0.N) (h0 : ¬t.val % 8 = 0) (h1 : t.val % 8 = 7) (s : Scr F) (y : S512x1.Idx) : ∃ pc ∈ (runC m c t h0 h1 s).2.2.2.1, y ∈ pc.1.set :=
  View.cover_of_tiledL (runC m c t h0 h1 s).2.2.2.1 S512x1.size (by unfold runC; sl_kernel_rfl) y
theorem scoverC_3 (c : Dev nD) (t : Fin cfg0.N) (h0 : ¬t.val % 8 = 0) (h1 : t.val % 8 = 7) (s : Scr F) (y : S512x1.Idx) : ∃ pc ∈ (runC m c t h0 h1 s).2.2.2.2.1, y ∈ pc.1.set :=
  View.cover_of_tiledL (runC m c t h0 h1 s).2.2.2.2.1 S512x1.size (by unfold runC; sl_kernel_rfl) y

end Cert.Kernel.Fr

end
-- ==== Proof.FrameKernelBody.lean ====
/-
  The proof data of the pipelined region and its body obligation, at any float instance.

  `outsAt0 n` is what the output block and the four scratch columns hold after the body at grid position `n`, by
  recursion on `n`: the first point of a row starts from nothing, every other point from what the point before left in the
  scratch columns. The region's invariant carries the four scratch columns at exactly those contents from one point to the
  next. Both row operands are blocks of the SAME array, so the proof data holds that array as two half shares, one per
  window; every other array is held whole. The body obligation is a case split on the point's position modulo 8, each
  case that case's run.
-/
import proofs.«157812_j86157043958222_1_alg».proof.Proof.FrameKernelSteps

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the scratch columns hold after each point -/

/-- The accumulation, by recursion on the grid position. -/
def outsAt0 (c : Dev nD) : (n : ℕ) → n < cfg0.N → Outs F
  | 0, hn => stepA m c ⟨0, hn⟩ (Nat.zero_mod _) (by decide : ¬ 0 % 8 = 7)
  | n + 1, hn =>
    if h0 : (n + 1) % 8 = 0 then stepA m c ⟨n + 1, hn⟩ h0 (fun h => by have h' : (n + 1) % 8 = 7 := h; omega)
    else if h1 : (n + 1) % 8 = 7 then stepC m c ⟨n + 1, hn⟩ h0 h1 (outsAt0 c n (Nat.lt_of_succ_lt hn)).2
    else stepB m c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch columns at anything; afterwards at what
    the point before left in them; the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The proof data -/

/-- The arrays as the region finds them; after the body each input's buffer at its block and the output's at
    `outsAt0`; the invariant `PhiS`; nothing owed; the twice-staged array as two half shares, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare.left := by dsimp only [dats]
theorem q1_eq (c : Dev nD) : (dats m 0 c).q 1 = fullShare.right := by dsimp only [dats]
theorem q2_eq (c : Dev nD) : (dats m 0 c).q 2 = fullShare := by dsimp only [dats]
theorem q3_eq (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the position modulo 8 says which case the point is
    in; the invariant hands the body the scratch columns at what the point before left (at anything at a row's first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 128 := lt_of_lt_of_eq t.isLt (show cfg0.N = 128 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold stepA; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stepC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runC m c t h0 h1 _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t h0 h1 _)
          isplitl [HS1]
          · unfold owns; iexists _; isplitr
            swap; · iexact HS1
            ipureintro; exact View.read_writes_of_cover _ _ _ _ _ (scoverC_1 m c t h0 h1 _)
          isplitl [HS2]
          · unfold owns; iexists _; isplitr
            swap; · iexact HS2
            ipureintro; exact View.read_writes_of_cover _ _ _ _ _ (scoverC_2 m c t h0 h1 _)
          unfold owns; iexists _; isplitr
          swap; · iexact HS3
          ipureintro; exact View.read_writes_of_cover _ _ _ _ _ (scoverC_3 m c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t h0 h1 _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold stepB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runB m c t h0 h1 _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch columns back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Fr

end
-- ==== Proof.FrameKernelLaunch.lean ====
/-
  The launch of the kernel program, whose pipelined region reads one array through two windows.

  Windows 0 and 1 stage blocks of the same array (row tiles and column tiles of the data). The launch hands the region
  each distinct array once, whole; the region's invariant holds one points-to per window. So the shared array's full
  share is split in two halves, one per window, on the way in, and the lines after the region (the mean of the region's
  result) run holding only the region's result and the buffers that bypass the region, the four input windows' pieces
  set aside.
-/
import proofs.«157812_j86157043958222_1_alg».proof.Proof.FrameKernelCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region leaves, read at a buffer -/

/-- The region's result is window 4's array and no other window's: the contents the region leaves read there are
    window 4's. -/
theorem withArrays_out (c : Dev nD) (Vv : Valuation τ sig (Elt F))
    (A : (w : Fin cfg0.W) → Buf (Elt F) ((cfg0.win w).arr.view.loc (c : Thread nD τ))) :
    Pipeline.withArrays spec0 c Vv A (Proc.devRef .tc main_v2) = A 4 := by
  unfold Pipeline.withArrays
  have h : ∃ w', Proc.devRef .tc (Pipeline.arrRef spec0 w') = Proc.devRef (τ := τ) .tc main_v2 := ⟨4, rfl⟩
  rw [dif_pos h]
  suffices ∀ (w' : Fin 5) (e : Proc.devRef .tc (Pipeline.arrRef spec0 w') = Proc.devRef (τ := τ) .tc main_v2),
      cast (congrArg (fun b' : DevRef τ sig => b'.ty.Contents (Elt F)) e) (A w') = A 4 from this _ h.choose_spec
  intro w' e
  obtain rfl : w' = 4 :=
    (by decide : ∀ w' : Fin 5, Pipeline.arrRef spec0 w' = main_v2 → w' = 4) w' (Proc.devRef_injective _ e)
  rfl

/-- The label vector is no window's array: the region leaves it as it was. -/
theorem withArrays_arg1 (c : Dev nD) (Vv : Valuation τ sig (Elt F))
    (A : (w : Fin cfg0.W) → Buf (Elt F) ((cfg0.win w).arr.view.loc (c : Thread nD τ))) :
    Pipeline.withArrays spec0 c Vv A (Proc.devRef .tc main_arg1) = Vv (Proc.devRef .tc main_arg1) :=
  Pipeline.withArrays_of_ne spec0 c Vv A main_arg1 (by decide)
/-- Nor is the first constant of the mean. -/
theorem withArrays_cst (c : Dev nD) (Vv : Valuation τ sig (Elt F))
    (A : (w : Fin cfg0.W) → Buf (Elt F) ((cfg0.win w).arr.view.loc (c : Thread nD τ))) :
    Pipeline.withArrays spec0 c Vv A (Proc.devRef .tc main_cst) = Vv (Proc.devRef .tc main_cst) :=
  Pipeline.withArrays_of_ne spec0 c Vv A main_cst (by decide)
/-- Nor the total. -/
theorem withArrays_v3 (c : Dev nD) (Vv : Valuation τ sig (Elt F))
    (A : (w : Fin cfg0.W) → Buf (Elt F) ((cfg0.win w).arr.view.loc (c : Thread nD τ))) :
    Pipeline.withArrays spec0 c Vv A (Proc.devRef .tc main_v3) = Vv (Proc.devRef .tc main_v3) :=
  Pipeline.withArrays_of_ne spec0 c Vv A main_v3 (by decide)
/-- Nor the second constant. -/
theorem withArrays_cst_0 (c : Dev nD) (Vv : Valuation τ sig (Elt F))
    (A : (w : Fin cfg0.W) → Buf (Elt F) ((cfg0.win w).arr.view.loc (c : Thread nD τ))) :
    Pipeline.withArrays spec0 c Vv A (Proc.devRef .tc main_cst_0) = Vv (Proc.devRef .tc main_cst_0) :=
  Pipeline.withArrays_of_ne spec0 c Vv A main_cst_0 (by decide)
/-- Nor the mean. -/
theorem withArrays_v4 (c : Dev nD) (Vv : Valuation τ sig (Elt F))
    (A : (w : Fin cfg0.W) → Buf (Elt F) ((cfg0.win w).arr.view.loc (c : Thread nD τ))) :
    Pipeline.withArrays spec0 c Vv A (Proc.devRef .tc main_v4) = Vv (Proc.devRef .tc main_v4) :=
  Pipeline.withArrays_of_ne spec0 c Vv A main_v4 (by decide)

/-! ## The arrays on the way in -/

/-- The distinct buffers behind the windows' arrays, conjoined one by one. -/
theorem bigSep_arr0 {M : Type} [URA M] (Φ : Ref sig .tc → sProp M) :
    bigSep (Finset.univ.image (Pipeline.arrRef spec0)) Φ = iprop(Φ main_arg0 ∗ Φ main_v0 ∗ Φ main_v1 ∗ Φ main_v2) :=
  bigSep_eq_bigSepL_of_eq [main_arg0, main_v0, main_v1, main_v2] (by decide) (by decide) Φ

/-- The launch's distinct array buffers, each whole at the full share, give the region's one points-to per window:
    the data array's full share is the composition of its two halves, one for the row-tile window and one for the
    column-tile window; the two label views and the result go to their one window whole. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w)) :
    (Pipeline.arrBufs spec0 c Vv : sProp 𝕄) ⊢ dat.arrays Fv := by
  have hw : ∀ w : Fin 5, ((cfg0.win w).arr.view.loc (c : Thread nD τ) ↦[(cfg0.win w).arr.view.set]{dat.share w} Fv w : sProp 𝕄)
      = (((c : Thread nD τ).loc (Pipeline.arrRef spec0 w)) ↦{dat.share w} Vv (Pipeline.arrRef spec0 w)) := fun w => by
    rw [(arr_whole0 w).set_eq_univ, hF w]
  have e0 : dat.share 0 = fullShare.left := by unfold Dat.share; exact hq0
  have e1 : dat.share 1 = fullShare.right := by unfold Dat.share; exact hq1
  have e2 : dat.share 2 = fullShare := by unfold Dat.share; exact hq2
  have e3 : dat.share 3 = fullShare := by unfold Dat.share; exact hq3
  have e4 : dat.share 4 = fullShare := by unfold Dat.share; rfl
  unfold Pipeline.arrBufs Dat.arrays
  rw [bigSep_arr0, bigSep_W0, hw 0, hw 1, hw 2, hw 3, hw 4, e0, e1, e2, e3, e4]
  iintro ⟨H0, H2, H3, H4⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  iexact H4

/-! ## The lines after the region -/

/-- The buffers the mean's four lines touch: the region's result, and the buffers that bypass the region. -/
abbrev tailL : List (Ref sig .tc) := [main_v2, main_arg1, main_cst, main_v3, main_cst_0, main_v4]
/-- The same as device buffers. -/
abbrev tailT : Finset (DevRef τ sig) := tailL.toFinset.map ⟨Proc.devRef (sig := sig) .tc, Proc.devRef_injective _⟩

theorem mem_tailT (b : Ref sig .tc) (hb : b ∈ tailL) : Proc.devRef (τ := τ) .tc b ∈ tailT :=
  Finset.mem_map_of_mem _ (List.mem_toFinset.mpr hb)

/-- Those buffers conjoined one by one. -/
theorem bigSep_tailL {M : Type} [URA M] (Φ : Ref sig .tc → sProp M) :
    bigSep tailL.toFinset Φ = iprop(Φ main_v2 ∗ Φ main_arg1 ∗ Φ main_cst ∗ Φ main_v3 ∗ Φ main_cst_0 ∗ Φ main_v4) :=
  bigSep_eq_bigSepL tailL (by decide) Φ

/-- Held whole at contents `Wv`, one by one. -/
theorem held_tailT (c : Dev nD) (Wv : Valuation τ sig (Elt F)) :
    (StableHlo.held (c : Thread nD τ) tailT Wv : sProp 𝕄)
      = iprop((((c : Thread nD τ).loc main_v2) ↦{fullShare} Wv (Proc.devRef .tc main_v2))
          ∗ (((c : Thread nD τ).loc main_arg1) ↦{fullShare} Wv (Proc.devRef .tc main_arg1))
          ∗ (((c : Thread nD τ).loc main_cst) ↦{fullShare} Wv (Proc.devRef .tc main_cst))
          ∗ (((c : Thread nD τ).loc main_v3) ↦{fullShare} Wv (Proc.devRef .tc main_v3))
          ∗ (((c : Thread nD τ).loc main_cst_0) ↦{fullShare} Wv (Proc.devRef .tc main_cst_0))
          ∗ (((c : Thread nD τ).loc main_v4) ↦{fullShare} Wv (Proc.devRef .tc main_v4))) := by
  unfold StableHlo.held tailT
  rw [bigSep_map, bigSep_tailL]
  rfl

/-- Each of the four lines touches only those buffers. -/
theorem hostOps1_sub_tail :
    ∀ ops ∈ ([hostOps1] : List (List (HloOp τ sig (Elt F)))), ∀ op ∈ ops, op.bufs ⊆ tailT := by
  intro ops hops op hop
  rw [List.mem_singleton] at hops; subst hops
  simp only [List.mem_cons, List.mem_singleton, List.not_mem_nil, or_false] at hop
  rcases hop with rfl | rfl | rfl | rfl
  · rw [StableHlo.nullary_bufs]; intro x hx
    rw [Finset.mem_singleton] at hx; subst hx; exact mem_tailT _ (by decide)
  · rw [StableHlo.binary_bufs]; intro x hx
    simp only [Finset.mem_insert, Finset.mem_singleton] at hx
    rcases hx with rfl | rfl | rfl <;> exact mem_tailT _ (by decide)
  · rw [StableHlo.nullary_bufs]; intro x hx
    rw [Finset.mem_singleton] at hx; subst hx; exact mem_tailT _ (by decide)
  · rw [StableHlo.binary_bufs]; intro x hx
    simp only [Finset.mem_insert, Finset.mem_singleton] at hx
    rcases hx with rfl | rfl | rfl <;> exact mem_tailT _ (by decide)

theorem hostOps1_fresh_tail :
    ∀ ops ∈ ([hostOps1] : List (List (HloOp τ sig (Elt F)))), ∀ op ∈ ops, op.fresh = ∅ := by
  intro ops hops op hop
  rw [List.mem_singleton] at hops; subst hops
  exact (List.forall_iff_forall_mem.mp hostOps1_fresh) op hop

/-- None of the four lines writes the region's result. -/
theorem hostOps1_keep_out :
    ∀ op ∈ ([hostOps1] : List (List (HloOp τ sig (Elt F)))).flatten, Proc.devRef (τ := τ) .tc main_v2 ∉ op.writes := by
  intro op hop
  simp only [List.flatten_cons, List.flatten_nil, List.append_nil, List.mem_cons, List.mem_singleton, List.not_mem_nil, or_false] at hop
  rcases hop with rfl | rfl | rfl | rfl
  · rw [StableHlo.nullary_writes, Finset.mem_singleton]; exact StableHlo.devRef_ne_of_ne (by decide)
  · rw [StableHlo.binary_writes, Finset.mem_singleton]; exact StableHlo.devRef_ne_of_ne (by decide)
  · rw [StableHlo.nullary_writes, Finset.mem_singleton]; exact StableHlo.devRef_ne_of_ne (by decide)
  · rw [StableHlo.binary_writes, Finset.mem_singleton]; exact StableHlo.devRef_ne_of_ne (by decide)

set_option backward.isDefEq.respectTransparency.types false in
/-- The mean's four lines run from the region's exit. They touch the region's result, which they only read, and the
    buffers that bypass the region; the four input windows' pieces of the arrays stay aside. The result comes back
    as the region left it, the bypassing buffers at the lines' contents. -/
theorem tail_mean (c : Dev nD) (dat : Dat τ (Elt F) Unit ℕ (UR sig nD τ) ℕ cfg0 c) (𝒱₀ : Variants) (Q' : PUnit → sProp 𝕄) :
    iprop((iprop(dat.arrays (fun w => dat.arrAt w cfg0.N)
              ∗ Pipeline.unscopedRest spec0 c (fun b => StableHlo.after ([hostOps1] : List (List (HloOp τ sig (Elt F)))).flatten
                  (Pipeline.withArrays spec0 c (V0 m c) (fun w => dat.arrAt w cfg0.N)) (Proc.devRef .tc b))) -∗ Q' ⟨⟩)
        ∗ boundary (c : Thread nD τ) ∗ dat.arrays (fun w => dat.arrAt w cfg0.N) ∗ Pipeline.unscopedRest spec0 c (V m c))
      ⊢ wp frame (wpE (Pipeline.defs (fun q => Cfg.toPCfg (Val := Elt F) (cfgs q)) defs₀) (Variants.lift 𝒱₀) (c : Thread nD τ) none)
          Set.univ (Pipeline.chain ([hostOps1].map StableHlo.seq)) Q' := by
  classical
  have hA4 : ((cfg0.win 4).arr.view.loc (c : Thread nD τ) ↦[(cfg0.win 4).arr.view.set]{dat.share 4} dat.arrAt 4 cfg0.N : sProp 𝕄)
      = (((c : Thread nD τ).loc main_v2) ↦{fullShare} dat.arrAt 4 cfg0.N) := by
    rw [(arr_whole0 4).set_eq_univ]; rfl
  have hW : (StableHlo.held (c : Thread nD τ) tailT (Pipeline.withArrays spec0 c (V0 m c) (fun w => dat.arrAt w cfg0.N)) : sProp 𝕄)
      = iprop((((c : Thread nD τ).loc main_v2) ↦{fullShare} dat.arrAt 4 cfg0.N)
          ∗ (((c : Thread nD τ).loc main_arg1) ↦{fullShare} V m c main_arg1)
          ∗ (((c : Thread nD τ).loc main_cst) ↦{fullShare} V m c main_cst)
          ∗ (((c : Thread nD τ).loc main_v3) ↦{fullShare} V m c main_v3)
          ∗ (((c : Thread nD τ).loc main_cst_0) ↦{fullShare} V m c main_cst_0)
          ∗ (((c : Thread nD τ).loc main_v4) ↦{fullShare} V m c main_v4)) := by
    rw [held_tailT, withArrays_out, withArrays_arg1, withArrays_cst, withArrays_v3, withArrays_cst_0, withArrays_v4]
  have hW' : (StableHlo.held (c : Thread nD τ) tailT (StableHlo.after ([hostOps1] : List (List (HloOp τ sig (Elt F)))).flatten
        (Pipeline.withArrays spec0 c (V0 m c) (fun w => dat.arrAt w cfg0.N))) : sProp 𝕄)
      = iprop((((c : Thread nD τ).loc main_v2) ↦{fullShare} dat.arrAt 4 cfg0.N)
          ∗ (((c : Thread nD τ).loc main_arg1) ↦{fullShare} StableHlo.after ([hostOps1] : List (List (HloOp τ sig (Elt F)))).flatten
              (Pipeline.withArrays spec0 c (V0 m c) (fun w => dat.arrAt w cfg0.N)) (Proc.devRef .tc main_arg1))
          ∗ (((c : Thread nD τ).loc main_cst) ↦{fullShare} StableHlo.after ([hostOps1] : List (List (HloOp τ sig (Elt F)))).flatten
              (Pipeline.withArrays spec0 c (V0 m c) (fun w => dat.arrAt w cfg0.N)) (Proc.devRef .tc main_cst))
          ∗ (((c : Thread nD τ).loc main_v3) ↦{fullShare} StableHlo.after ([hostOps1] : List (List (HloOp τ sig (Elt F)))).flatten
              (Pipeline.withArrays spec0 c (V0 m c) (fun w => dat.arrAt w cfg0.N)) (Proc.devRef .tc main_v3))
          ∗ (((c : Thread nD τ).loc main_cst_0) ↦{fullShare} StableHlo.after ([hostOps1] : List (List (HloOp τ sig (Elt F)))).flatten
              (Pipeline.withArrays spec0 c (V0 m c) (fun w => dat.arrAt w cfg0.N)) (Proc.devRef .tc main_cst_0))
          ∗ (((c : Thread nD τ).loc main_v4) ↦{fullShare} StableHlo.after ([hostOps1] : List (List (HloOp τ sig (Elt F)))).flatten
              (Pipeline.withArrays spec0 c (V0 m c) (fun w => dat.arrAt w cfg0.N)) (Proc.devRef .tc main_v4))) := by
    rw [held_tailT, StableHlo.after_of_forall_not_mem _ _ hostOps1_keep_out, withArrays_out]
  unfold Dat.arrays
  rw [bigSep_W0, unscopedRest0_eq, unscopedRest0_eq, hA4, ← List.append_nil (List.map StableHlo.seq [hostOps1])]
  iintro ⟨Hk, Hb, ⟨A0, A1, A2, A3, A4⟩, ⟨R1, R2, R3, R4, R5⟩⟩
  iapply (Pipeline.wp_seqs_then (fun q => Cfg.toPCfg (Val := Elt F) (cfgs q)) defs₀ 𝒱₀ c tailT [] [hostOps1]
    hostOps1_sub_tail hostOps1_fresh_tail (Pipeline.withArrays spec0 c (V0 m c) (fun w => dat.arrAt w cfg0.N))) $$ [Hb A4 R1 R2 R3 R4 R5]
  · rw [hW]
    isplitl [Hb]; · iexact Hb
    isplitl [A4]; · iexact A4
    isplitl [R1]; · iexact R1
    isplitl [R2]; · iexact R2
    isplitl [R3]; · iexact R3
    isplitl [R4]; · iexact R4
    iexact R5
  iintro Hb
  rw [Pipeline.chain_nil, wp_pure, hW']
  imodintro
  iapply Hk
  icases Hb with ⟨-, H4, S1, S2, S3, S4, S5⟩
  isplitl [A0 A1 A2 A3 H4]
  · isplitl [A0]; · iexact A0
    isplitl [A1]; · iexact A1
    isplitl [A2]; · iexact A2
    isplitl [A3]; · iexact A3
    iexact H4
  · isplitl [S1]; · iexact S1
    isplitl [S2]; · iexact S2
    isplitl [S3]; · iexact S3
    isplitl [S4]; · iexact S4
    iexact S5

/-! ## The frame run -/

set_option backward.isDefEq.respectTransparency.types false in
/-- The frame run of the program: the launch hands the region the arrays with the data array's share split between
    its two windows, the region runs the body at every grid point, and the mean's four lines run from its exit. Every
    array ends at what the proof data compute, every bypassing buffer at the lines' contents. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats ()
    cellOf_inj 0 winFacts₀0 (Pipeline.OwnSemFacts.none spec0) (Pipeline.PreFacts.none spec0) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats 0 c) (hq0 c) (hq1 c) (hq2 c) (hq3 c) (V m c) _ fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (Pipeline.afterTail₀ cfgs dats 0 (V0 m) [hostOps1] c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_mean m c (dats 0 c) Variants.none Q')
    (QY := fun c s => ∀ b ∈ Pipeline.restRefs sig spec0,
      s.mem ((c : Thread nD τ).loc b) = Pipeline.afterTail₀ cfgs dats 0 (V0 m) [hostOps1] c b)
    (hY := fun c s' => by
      iintro ⟨-, HU, HSI⟩
      unfold Pipeline.unscopedRest
      imodintro
      iapply (pointsTo_read_all (Pipeline.restRefs sig spec0) (fun b => (c : Thread nD τ).loc b)
        (Pipeline.afterTail₀ cfgs dats 0 (V0 m) [hostOps1] c) s')
      isplitl [HU] <;> iassumption)
    (hQ := fun s h c => ⟨(h c).1, (h c).2.2⟩)

/-! ## The frame from the frame run -/

/-- Neither reshape writes the data array. -/
theorem hostOps0_keep_arg0 :
    ∀ op ∈ ([hostOps0] : List (List (HloOp τ sig (Elt F)))).flatten, Proc.devRef (τ := τ) .tc main_arg0 ∉ op.writes := by
  intro op hop
  simp only [List.flatten_cons, List.flatten_nil, List.append_nil, List.mem_cons, List.mem_singleton, List.not_mem_nil, or_false] at hop
  rcases hop with rfl | rfl
  · rw [StableHlo.reshape_writes, Finset.mem_singleton]; exact StableHlo.devRef_ne_of_ne (by decide)
  · rw [StableHlo.reshape_writes, Finset.mem_singleton]; exact StableHlo.devRef_ne_of_ne (by decide)

/-- Neither reshape writes the label vector it reads. -/
theorem hostOps0_keep_arg1 :
    ∀ op ∈ ([hostOps0] : List (List (HloOp τ sig (Elt F)))).flatten, Proc.devRef (τ := τ) .tc main_arg1 ∉ op.writes := by
  intro op hop
  simp only [List.flatten_cons, List.flatten_nil, List.append_nil, List.mem_cons, List.mem_singleton, List.not_mem_nil, or_false] at hop
  rcases hop with rfl | rfl
  · rw [StableHlo.reshape_writes, Finset.mem_singleton]; exact StableHlo.devRef_ne_of_ne (by decide)
  · rw [StableHlo.reshape_writes, Finset.mem_singleton]; exact StableHlo.devRef_ne_of_ne (by decide)

/-- None of the mean's four lines writes the label vector. -/
theorem hostOps1_keep_arg1 :
    ∀ op ∈ ([hostOps1] : List (List (HloOp τ sig (Elt F)))).flatten, Proc.devRef (τ := τ) .tc main_arg1 ∉ op.writes := by
  intro op hop
  simp only [List.flatten_cons, List.flatten_nil, List.append_nil, List.mem_cons, List.mem_singleton, List.not_mem_nil, or_false] at hop
  rcases hop with rfl | rfl | rfl | rfl
  · rw [StableHlo.nullary_writes, Finset.mem_singleton]; exact StableHlo.devRef_ne_of_ne (by decide)
  · rw [StableHlo.binary_writes, Finset.mem_singleton]; exact StableHlo.devRef_ne_of_ne (by decide)
  · rw [StableHlo.nullary_writes, Finset.mem_singleton]; exact StableHlo.devRef_ne_of_ne (by decide)
  · rw [StableHlo.binary_writes, Finset.mem_singleton]; exact StableHlo.devRef_ne_of_ne (by decide)

/-- The region finds the data array as the launch left it. -/
theorem V_main_arg0 (c : Dev nD) : V m c main_arg0 = m ((c : Thread nD τ).loc main_arg0) :=
  StableHlo.after_of_forall_not_mem _ _ hostOps0_keep_arg0

/-- And the label vector. -/
theorem V_main_arg1 (c : Dev nD) : V m c main_arg1 = m ((c : Thread nD τ).loc main_arg1) :=
  StableHlo.after_of_forall_not_mem _ _ hostOps0_keep_arg1

/-- After the mean's lines the label vector is still as the launch left it. -/
theorem afterTail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem _ _ hostOps1_keep_arg1]
  exact (withArrays_arg1 c (V0 m c) _).trans (V_main_arg1 m c)

/-- The frame from a frame run: both argument arrays end as the launch left them. The data array is an input window's
    array, which the region never writes; the label vector bypasses the region and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 rfl (by decide))).trans (afterTail_arg1 m dats c)⟩) h

end Cert.Kernel.Fr

end
-- ==== Proof.FrameKernelIdealCommon.lean ====
/-
  What the three case runs of the kernel body and the launch share, at any float instance.

  The program is: two reshapes of the label vector (a column view and a row view), one pipelined region over a
  16 × 8 grid, then the mean of the region's 8192 × 1 result. At grid point (i, j) the body sees row tile i of the data
  (512 rows) and column tile j (1024 rows of the same array), the labels of both tiles, one output block and four scratch
  columns that it carries from point to point: it clears them where j = 0, adds this tile's four partial row sums
  everywhere, and where j = 7 turns them into the output block. So there are three kinds of point, told apart by the
  point's position modulo 8: first of a row (0), interior (1–6), last of a row (7).

  Here: the buffers as the region finds them (after the two reshapes), each window's block read off its array, the two
  branch conditions in closed form over the grid, where the output window is idle, and names for the staging and
  scratch memrefs the body is called with.
-/
import proofs.«157812_j86157043958222_1_alg».proof.Proof.Gen.KernelIdeal.Launch
import proofs.«157812_j86157043958222_1_alg».proof.Proof.Gen.KernelIdeal.Skeleton
import proofs.«157812_j86157043958222_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two reshapes, the region, and the four operations of the mean: it reduces to the region
    continued by the mean, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or an
    earlier one did (the block index has not moved since), for any proof data over `V` that leaves inputs in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column tile of its row": the body's first `if`, from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile of its row": the body's second `if`. -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a row's last column tile the body stores nothing into the output block, and the block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a row's last column tile the output block is stored. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S512x1 .f32 := (Memref.whole cc0_stg4_0 : Memref sig .tc .vmem S512x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The four scratch columns: whole scoped buffers of the kernel's own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- A scratch column as a view: what it holds is stated through it (the four have one shape and one layout). -/
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view

/-- What the launch hands the body beside the windows: the four scratch columns at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Fr

end
-- ==== Proof.FrameKernelIdealRunA.lean ====
/-
  The body's run at the first column tile of a row, at any float instance.

  From the four input blocks at their contents, the output block at whatever it holds (handed back untouched) and the
  four scratch columns at ANY contents, the body runs to the end holding the inputs as they were and each scratch column
  with two whole-column stores written: first zero, then zero plus this tile's partial row sum. The stores are found by
  running the body; they are the witness.
-/
import proofs.«157812_j86157043958222_1_alg».proof.Proof.FrameKernelIdealCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the first point of a row leaves in the four scratch columns (last first), with the proof that the body
    runs to the continuation holding exactly them. -/
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x256 .f32) (x1 : Vec F S1024x256 .f32) (x2 : Vec F S512x1 .i32) (x3 : Vec F S1x1024 .i32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Fr

end
-- ==== Proof.FrameKernelIdealRunB.lean ====
/-
  The body's run at an interior point of a row (neither the first nor the last column tile), at any float instance.

  From the four input blocks at their contents, the output block at whatever it holds (handed back untouched) and the
  four scratch columns at what the point before left, the body runs to the end holding the inputs as they were and each
  scratch column with one whole-column store written: the column plus this tile's partial row sum. The stores are found
  by running the body; they are the witness.
-/
import proofs.«157812_j86157043958222_1_alg».proof.Proof.FrameKernelIdealCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores an interior point leaves in the four scratch columns (last first), with the proof that the body runs to
    the continuation holding exactly them. -/
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x256 .f32) (x1 : Vec F S1024x256 .f32) (x2 : Vec F S512x1 .i32) (x3 : Vec F S1x1024 .i32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Fr

end
-- ==== Proof.FrameKernelIdealRunC.lean ====
/-
  The body's run at the last column tile of a row, at any float instance.

  From the four input blocks at their contents, the output block at ANY contents and the four scratch columns at what the
  point before left, the body runs to the end holding the inputs as they were, each scratch column with one whole-column
  store written (the column plus this tile's partial row sum) and the output block with one whole-block store written: the
  row's margin loss computed from the four completed columns. The stores are found by running the body; they are the witness.
-/
import proofs.«157812_j86157043958222_1_alg».proof.Proof.FrameKernelIdealCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the last point of a row leaves in the output block and the four scratch columns (last first), with the
    proof that the body runs to the continuation holding exactly them. -/
noncomputable def kernelRun0_C (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x256 .f32) (x1 : Vec F S1024x256 .f32) (x2 : Vec F S512x1 .i32) (x3 : Vec F S1x1024 .i32) (xs0 xs1 xs2 xs3 : Vec F S512x1 .f32) :
    Σ' (L4 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Fr

end
-- ==== Proof.FrameKernelIdealSteps.lean ====
/-
  Each of the three case runs taken at a grid point `t`: on the staging memrefs the pipeline is on at `t`, the four
  scratch columns, and the four input blocks read off the arrays as the region finds them; what the run leaves in the
  output block and in the four scratch columns (its stores read back), and that those stores cover each buffer.
  A point's kind is told by its position modulo 8 (the closed forms of the two branch conditions).
-/
import proofs.«157812_j86157043958222_1_alg».proof.Proof.FrameKernelIdealRunA
import proofs.«157812_j86157043958222_1_alg».proof.Proof.FrameKernelIdealRunB
import proofs.«157812_j86157043958222_1_alg».proof.Proof.FrameKernelIdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four scratch columns hold (in order). -/
abbrev Scr (F : FTy → Type) [FloatOps F] : Type := Vec F S512x1 .f32 × Vec F S512x1 .f32 × Vec F S512x1 .f32 × Vec F S512x1 .f32
/-- What the output block and the four scratch columns hold. -/
abbrev Outs (F : FTy → Type) [FloatOps F] : Type := Vec F S512x1 .f32 × Scr F

/-- The run at the first column tile of a row, taken at point `t`. -/
def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
/-- The run at an interior column tile, taken at point `t` over the scratch contents `s` the point before left. -/
def runB (c : Dev nD) (t : Fin cfg0.N) (h0 : ¬t.val % 8 = 0) (h1 : ¬t.val % 8 = 7) (s : Scr F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) s.1 s.2.1 s.2.2.1 s.2.2.2
/-- The run at the last column tile of a row, taken at point `t` over the scratch contents `s` the point before left. -/
def runC (c : Dev nD) (t : Fin cfg0.N) (h0 : ¬t.val % 8 = 0) (h1 : t.val % 8 = 7) (s : Scr F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) s.1 s.2.1 s.2.2.1 s.2.2.2

/-- The output block where the body stores nothing into it: a placeholder nothing consults (the block is neither written
    back there nor read at the next point). -/
def outIdle : Vec F S512x1 .f32 := VO0_4.read (Elt F) (VO0_4.writes (Elt F) VO0_4.junk [])

/-- What the first point of a row leaves. -/
def stepA (c : Dev nD) (t : Fin cfg0.N) (h0 : t.val % 8 = 0) (h1 : ¬t.val % 8 = 7) : Outs F :=
  (outIdle, VS0_0.read (Elt F) (VS0_0.writes (Elt F) VS0_0.junk (runA m c t h0 h1).1), VS0_1.read (Elt F) (VS0_1.writes (Elt F) VS0_1.junk (runA m c t h0 h1).2.1), VS0_2.read (Elt F) (VS0_2.writes (Elt F) VS0_2.junk (runA m c t h0 h1).2.2.1), VS0_3.read (Elt F) (VS0_3.writes (Elt F) VS0_3.junk (runA m c t h0 h1).2.2.2.1))
/-- What an interior point leaves, over `s`. -/
def stepB (c : Dev nD) (t : Fin cfg0.N) (h0 : ¬t.val % 8 = 0) (h1 : ¬t.val % 8 = 7) (s : Scr F) : Outs F :=
  (outIdle, VS0_0.read (Elt F) (VS0_0.writes (Elt F) VS0_0.junk (runB m c t h0 h1 s).1), VS0_1.read (Elt F) (VS0_1.writes (Elt F) VS0_1.junk (runB m c t h0 h1 s).2.1), VS0_2.read (Elt F) (VS0_2.writes (Elt F) VS0_2.junk (runB m c t h0 h1 s).2.2.1), VS0_3.read (Elt F) (VS0_3.writes (Elt F) VS0_3.junk (runB m c t h0 h1 s).2.2.2.1))
/-- What the last point of a row leaves, over `s`. -/
def stepC (c : Dev nD) (t : Fin cfg0.N) (h0 : ¬t.val % 8 = 0) (h1 : t.val % 8 = 7) (s : Scr F) : Outs F :=
  (VO0_4.read (Elt F) (VO0_4.writes (Elt F) VO0_4.junk (runC m c t h0 h1 s).1), VS0_0.read (Elt F) (VS0_0.writes (Elt F) VS0_0.junk (runC m c t h0 h1 s).2.1), VS0_1.read (Elt F) (VS0_1.writes (Elt F) VS0_1.junk (runC m c t h0 h1 s).2.2.1), VS0_2.read (Elt F) (VS0_2.writes (Elt F) VS0_2.junk (runC m c t h0 h1 s).2.2.2.1), VS0_3.read (Elt F) (VS0_3.writes (Elt F) VS0_3.junk (runC m c t h0 h1 s).2.2.2.2.1))

/-! ## The stores cover the buffers (each buffer is stored whole) -/

theorem scoverA_0 (c : Dev nD) (t : Fin cfg0.N) (h0 : t.val % 8 = 0) (h1 : ¬t.val % 8 = 7) (y : S512x1.Idx) : ∃ pc ∈ (runA (F := F) m c t h0 h1).1, y ∈ pc.1.set :=
  View.cover_of_tiledL (runA (F := F) m c t h0 h1).1 S512x1.size (by unfold runA; sl_kernel_rfl) y
theorem scoverA_1 (c : Dev nD) (t : Fin cfg0.N) (h0 : t.val % 8 = 0) (h1 : ¬t.val % 8 = 7) (y : S512x1.Idx) : ∃ pc ∈ (runA (F := F) m c t h0 h1).2.1, y ∈ pc.1.set :=
  View.cover_of_tiledL (runA (F := F) m c t h0 h1).2.1 S512x1.size (by unfold runA; sl_kernel_rfl) y
theorem scoverA_2 (c : Dev nD) (t : Fin cfg0.N) (h0 : t.val % 8 = 0) (h1 : ¬t.val % 8 = 7) (y : S512x1.Idx) : ∃ pc ∈ (runA (F := F) m c t h0 h1).2.2.1, y ∈ pc.1.set :=
  View.cover_of_tiledL (runA (F := F) m c t h0 h1).2.2.1 S512x1.size (by unfold runA; sl_kernel_rfl) y
theorem scoverA_3 (c : Dev nD) (t : Fin cfg0.N) (h0 : t.val % 8 = 0) (h1 : ¬t.val % 8 = 7) (y : S512x1.Idx) : ∃ pc ∈ (runA (F := F) m c t h0 h1).2.2.2.1, y ∈ pc.1.set :=
  View.cover_of_tiledL (runA (F := F) m c t h0 h1).2.2.2.1 S512x1.size (by unfold runA; sl_kernel_rfl) y

theorem scoverB_0 (c : Dev nD) (t : Fin cfg0.N) (h0 : ¬t.val % 8 = 0) (h1 : ¬t.val % 8 = 7) (s : Scr F) (y : S512x1.Idx) : ∃ pc ∈ (runB m c t h0 h1 s).1, y ∈ pc.1.set :=
  View.cover_of_tiledL (runB m c t h0 h1 s).1 S512x1.size (by unfold runB; sl_kernel_rfl) y
theorem scoverB_1 (c : Dev nD) (t : Fin cfg0.N) (h0 : ¬t.val % 8 = 0) (h1 : ¬t.val % 8 = 7) (s : Scr F) (y : S512x1.Idx) : ∃ pc ∈ (runB m c t h0 h1 s).2.1, y ∈ pc.1.set :=
  View.cover_of_tiledL (runB m c t h0 h1 s).2.1 S512x1.size (by unfold runB; sl_kernel_rfl) y
theorem scoverB_2 (c : Dev nD) (t : Fin cfg0.N) (h0 : ¬t.val % 8 = 0) (h1 : ¬t.val % 8 = 7) (s : Scr F) (y : S512x1.Idx) : ∃ pc ∈ (runB m c t h0 h1 s).2.2.1, y ∈ pc.1.set :=
  View.cover_of_tiledL (runB m c t h0 h1 s).2.2.1 S512x1.size (by unfold runB; sl_kernel_rfl) y
theorem scoverB_3 (c : Dev nD) (t : Fin cfg0.N) (h0 : ¬t.val % 8 = 0) (h1 : ¬t.val % 8 = 7) (s : Scr F) (y : S512x1.Idx) : ∃ pc ∈ (runB m c t h0 h1 s).2.2.2.1, y ∈ pc.1.set :=
  View.cover_of_tiledL (runB m c t h0 h1 s).2.2.2.1 S512x1.size (by unfold runB; sl_kernel_rfl) y

theorem coverC_4 (c : Dev nD) (t : Fin cfg0.N) (h0 : ¬t.val % 8 = 0) (h1 : t.val % 8 = 7) (s : Scr F) (y : S512x1.Idx) : ∃ pc ∈ (runC m c t h0 h1 s).1, y ∈ pc.1.set :=
  View.cover_of_tiledL (runC m c t h0 h1 s).1 S512x1.size (by unfold runC; sl_kernel_rfl) y
theorem scoverC_0 (c : Dev nD) (t : Fin cfg0.N) (h0 : ¬t.val % 8 = 0) (h1 : t.val % 8 = 7) (s : Scr F) (y : S512x1.Idx) : ∃ pc ∈ (runC m c t h0 h1 s).2.1, y ∈ pc.1.set :=
  View.cover_of_tiledL (runC m c t h0 h1 s).2.1 S512x1.size (by unfold runC; sl_kernel_rfl) y
theorem scoverC_1 (c : Dev nD) (t : Fin cfg0.N) (h0 : ¬t.val % 8 = 0) (h1 : t.val % 8 = 7) (s : Scr F) (y : S512x1.Idx) : ∃ pc ∈ (runC m c t h0 h1 s).2.2.1, y ∈ pc.1.set :=
  View.cover_of_tiledL (runC m c t h0 h1 s).2.2.1 S512x1.size (by unfold runC; sl_kernel_rfl) y
theorem scoverC_2 (c : Dev nD) (t : Fin cfg0.N) (h0 : ¬t.val % 8 = 0) (h1 : t.val % 8 = 7) (s : Scr F) (y : S512x1.Idx) : ∃ pc ∈ (runC m c t h0 h1 s).2.2.2.1, y ∈ pc.1.set :=
  View.cover_of_tiledL (runC m c t h0 h1 s).2.2.2.1 S512x1.size (by unfold runC; sl_kernel_rfl) y
theorem scoverC_3 (c : Dev nD) (t : Fin cfg0.N) (h0 : ¬t.val % 8 = 0) (h1 : t.val % 8 = 7) (s : Scr F) (y : S512x1.Idx) : ∃ pc ∈ (runC m c t h0 h1 s).2.2.2.2.1, y ∈ pc.1.set :=
  View.cover_of_tiledL (runC m c t h0 h1 s).2.2.2.2.1 S512x1.size (by unfold runC; sl_kernel_rfl) y

end Cert.KernelIdeal.Fr

end
-- ==== Proof.FrameKernelIdealBody.lean ====
/-
  The proof data of the pipelined region and its body obligation, at any float instance.

  `outsAt0 n` is what the output block and the four scratch columns hold after the body at grid position `n`, by
  recursion on `n`: the first point of a row starts from nothing, every other point from what the point before left in the
  scratch columns. The region's invariant carries the four scratch columns at exactly those contents from one point to the
  next. Both row operands are blocks of the SAME array, so the proof data holds that array as two half shares, one per
  window; every other array is held whole. The body obligation is a case split on the point's position modulo 8, each
  case that case's run.
-/
import proofs.«157812_j86157043958222_1_alg».proof.Proof.FrameKernelIdealSteps

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the scratch columns hold after each point -/

/-- The accumulation, by recursion on the grid position. -/
def outsAt0 (c : Dev nD) : (n : ℕ) → n < cfg0.N → Outs F
  | 0, hn => stepA m c ⟨0, hn⟩ (Nat.zero_mod _) (by decide : ¬ 0 % 8 = 7)
  | n + 1, hn =>
    if h0 : (n + 1) % 8 = 0 then stepA m c ⟨n + 1, hn⟩ h0 (fun h => by have h' : (n + 1) % 8 = 7 := h; omega)
    else if h1 : (n + 1) % 8 = 7 then stepC m c ⟨n + 1, hn⟩ h0 h1 (outsAt0 c n (Nat.lt_of_succ_lt hn)).2
    else stepB m c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 m c t.val t.isLt = stepA m c t h0 h1 := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = stepB m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stepC m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch columns at anything; afterwards at what
    the point before left in them; the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The proof data -/

/-- The arrays as the region finds them; after the body each input's buffer at its block and the output's at
    `outsAt0`; the invariant `PhiS`; nothing owed; the twice-staged array as two half shares, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare.left := by dsimp only [dats]
theorem q1_eq (c : Dev nD) : (dats m 0 c).q 1 = fullShare.right := by dsimp only [dats]
theorem q2_eq (c : Dev nD) : (dats m 0 c).q 2 = fullShare := by dsimp only [dats]
theorem q3_eq (c : Dev nD) : (dats m 0 c).q 3 = fullShare := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the position modulo 8 says which case the point is
    in; the invariant hands the body the scratch columns at what the point before left (at anything at a row's first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 128 := lt_of_lt_of_eq t.isLt (show cfg0.N = 128 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold stepA; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stepC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runC m c t h0 h1 _).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t h0 h1 _)
          isplitl [HS1]
          · unfold owns; iexists _; isplitr
            swap; · iexact HS1
            ipureintro; exact View.read_writes_of_cover _ _ _ _ _ (scoverC_1 m c t h0 h1 _)
          isplitl [HS2]
          · unfold owns; iexists _; isplitr
            swap; · iexact HS2
            ipureintro; exact View.read_writes_of_cover _ _ _ _ _ (scoverC_2 m c t h0 h1 _)
          unfold owns; iexists _; isplitr
          swap; · iexact HS3
          ipureintro; exact View.read_writes_of_cover _ _ _ _ _ (scoverC_3 m c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t h0 h1 _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold stepB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runB m c t h0 h1 _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch columns back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Fr

end
-- ==== Proof.FrameKernelIdealLaunch.lean ====
/-
  The launch of the kernel program, whose pipelined region reads one array through two windows.

  Windows 0 and 1 stage blocks of the same array (row tiles and column tiles of the data). The launch hands the region
  each distinct array once, whole; the region's invariant holds one points-to per window. So the shared array's full
  share is split in two halves, one per window, on the way in, and the lines after the region (the mean of the region's
  result) run holding only the region's result and the buffers that bypass the region, the four input windows' pieces
  set aside.
-/
import proofs.«157812_j86157043958222_1_alg».proof.Proof.FrameKernelIdealCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region leaves, read at a buffer -/

/-- The region's result is window 4's array and no other window's: the contents the region leaves read there are
    window 4's. -/
theorem withArrays_out (c : Dev nD) (Vv : Valuation τ sig (Elt F))
    (A : (w : Fin cfg0.W) → Buf (Elt F) ((cfg0.win w).arr.view.loc (c : Thread nD τ))) :
    Pipeline.withArrays spec0 c Vv A (Proc.devRef .tc main_v2) = A 4 := by
  unfold Pipeline.withArrays
  have h : ∃ w', Proc.devRef .tc (Pipeline.arrRef spec0 w') = Proc.devRef (τ := τ) .tc main_v2 := ⟨4, rfl⟩
  rw [dif_pos h]
  suffices ∀ (w' : Fin 5) (e : Proc.devRef .tc (Pipeline.arrRef spec0 w') = Proc.devRef (τ := τ) .tc main_v2),
      cast (congrArg (fun b' : DevRef τ sig => b'.ty.Contents (Elt F)) e) (A w') = A 4 from this _ h.choose_spec
  intro w' e
  obtain rfl : w' = 4 :=
    (by decide : ∀ w' : Fin 5, Pipeline.arrRef spec0 w' = main_v2 → w' = 4) w' (Proc.devRef_injective _ e)
  rfl

/-- The label vector is no window's array: the region leaves it as it was. -/
theorem withArrays_arg1 (c : Dev nD) (Vv : Valuation τ sig (Elt F))
    (A : (w : Fin cfg0.W) → Buf (Elt F) ((cfg0.win w).arr.view.loc (c : Thread nD τ))) :
    Pipeline.withArrays spec0 c Vv A (Proc.devRef .tc main_arg1) = Vv (Proc.devRef .tc main_arg1) :=
  Pipeline.withArrays_of_ne spec0 c Vv A main_arg1 (by decide)
/-- Nor is the first constant of the mean. -/
theorem withArrays_cst (c : Dev nD) (Vv : Valuation τ sig (Elt F))
    (A : (w : Fin cfg0.W) → Buf (Elt F) ((cfg0.win w).arr.view.loc (c : Thread nD τ))) :
    Pipeline.withArrays spec0 c Vv A (Proc.devRef .tc main_cst) = Vv (Proc.devRef .tc main_cst) :=
  Pipeline.withArrays_of_ne spec0 c Vv A main_cst (by decide)
/-- Nor the total. -/
theorem withArrays_v3 (c : Dev nD) (Vv : Valuation τ sig (Elt F))
    (A : (w : Fin cfg0.W) → Buf (Elt F) ((cfg0.win w).arr.view.loc (c : Thread nD τ))) :
    Pipeline.withArrays spec0 c Vv A (Proc.devRef .tc main_v3) = Vv (Proc.devRef .tc main_v3) :=
  Pipeline.withArrays_of_ne spec0 c Vv A main_v3 (by decide)
/-- Nor the second constant. -/
theorem withArrays_cst_0 (c : Dev nD) (Vv : Valuation τ sig (Elt F))
    (A : (w : Fin cfg0.W) → Buf (Elt F) ((cfg0.win w).arr.view.loc (c : Thread nD τ))) :
    Pipeline.withArrays spec0 c Vv A (Proc.devRef .tc main_cst_0) = Vv (Proc.devRef .tc main_cst_0) :=
  Pipeline.withArrays_of_ne spec0 c Vv A main_cst_0 (by decide)
/-- Nor the mean. -/
theorem withArrays_v4 (c : Dev nD) (Vv : Valuation τ sig (Elt F))
    (A : (w : Fin cfg0.W) → Buf (Elt F) ((cfg0.win w).arr.view.loc (c : Thread nD τ))) :
    Pipeline.withArrays spec0 c Vv A (Proc.devRef .tc main_v4) = Vv (Proc.devRef .tc main_v4) :=
  Pipeline.withArrays_of_ne spec0 c Vv A main_v4 (by decide)

/-! ## The arrays on the way in -/

/-- The distinct buffers behind the windows' arrays, conjoined one by one. -/
theorem bigSep_arr0 {M : Type} [URA M] (Φ : Ref sig .tc → sProp M) :
    bigSep (Finset.univ.image (Pipeline.arrRef spec0)) Φ = iprop(Φ main_arg0 ∗ Φ main_v0 ∗ Φ main_v1 ∗ Φ main_v2) :=
  bigSep_eq_bigSepL_of_eq [main_arg0, main_v0, main_v1, main_v2] (by decide) (by decide) Φ

/-- The launch's distinct array buffers, each whole at the full share, give the region's one points-to per window:
    the data array's full share is the composition of its two halves, one for the row-tile window and one for the
    column-tile window; the two label views and the result go to their one window whole. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vv : (b : Ref sig .tc) → Buf (Elt F) ((c : Thread nD τ).loc b))
    (Fv : (w : Fin cfg0.W) → Buf (Elt F) ((cfg0.win w).arr.view.loc (c : Thread nD τ)))
    (hF : ∀ w, Fv w = Vv (Pipeline.arrRef spec0 w)) :
    (Pipeline.arrBufs spec0 c Vv : sProp 𝕄) ⊢ dat.arrays Fv := by
  have hw : ∀ w : Fin 5, ((cfg0.win w).arr.view.loc (c : Thread nD τ) ↦[(cfg0.win w).arr.view.set]{dat.share w} Fv w : sProp 𝕄)
      = (((c : Thread nD τ).loc (Pipeline.arrRef spec0 w)) ↦{dat.share w} Vv (Pipeline.arrRef spec0 w)) := fun w => by
    rw [(arr_whole0 w).set_eq_univ, hF w]
  have e0 : dat.share 0 = fullShare.left := by unfold Dat.share; exact hq0
  have e1 : dat.share 1 = fullShare.right := by unfold Dat.share; exact hq1
  have e2 : dat.share 2 = fullShare := by unfold Dat.share; exact hq2
  have e3 : dat.share 3 = fullShare := by unfold Dat.share; exact hq3
  have e4 : dat.share 4 = fullShare := by unfold Dat.share; rfl
  unfold Pipeline.arrBufs Dat.arrays
  rw [bigSep_arr0, bigSep_W0, hw 0, hw 1, hw 2, hw 3, hw 4, e0, e1, e2, e3, e4]
  iintro ⟨H0, H2, H3, H4⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  iexact H4

/-! ## The lines after the region -/

/-- The buffers the mean's four lines touch: the region's result, and the buffers that bypass the region. -/
abbrev tailL : List (Ref sig .tc) := [main_v2, main_arg1, main_cst, main_v3, main_cst_0, main_v4]
/-- The same as device buffers. -/
abbrev tailT : Finset (DevRef τ sig) := tailL.toFinset.map ⟨Proc.devRef (sig := sig) .tc, Proc.devRef_injective _⟩

theorem mem_tailT (b : Ref sig .tc) (hb : b ∈ tailL) : Proc.devRef (τ := τ) .tc b ∈ tailT :=
  Finset.mem_map_of_mem _ (List.mem_toFinset.mpr hb)

/-- Those buffers conjoined one by one. -/
theorem bigSep_tailL {M : Type} [URA M] (Φ : Ref sig .tc → sProp M) :
    bigSep tailL.toFinset Φ = iprop(Φ main_v2 ∗ Φ main_arg1 ∗ Φ main_cst ∗ Φ main_v3 ∗ Φ main_cst_0 ∗ Φ main_v4) :=
  bigSep_eq_bigSepL tailL (by decide) Φ

/-- Held whole at contents `Wv`, one by one. -/
theorem held_tailT (c : Dev nD) (Wv : Valuation τ sig (Elt F)) :
    (StableHlo.held (c : Thread nD τ) tailT Wv : sProp 𝕄)
      = iprop((((c : Thread nD τ).loc main_v2) ↦{fullShare} Wv (Proc.devRef .tc main_v2))
          ∗ (((c : Thread nD τ).loc main_arg1) ↦{fullShare} Wv (Proc.devRef .tc main_arg1))
          ∗ (((c : Thread nD τ).loc main_cst) ↦{fullShare} Wv (Proc.devRef .tc main_cst))
          ∗ (((c : Thread nD τ).loc main_v3) ↦{fullShare} Wv (Proc.devRef .tc main_v3))
          ∗ (((c : Thread nD τ).loc main_cst_0) ↦{fullShare} Wv (Proc.devRef .tc main_cst_0))
          ∗ (((c : Thread nD τ).loc main_v4) ↦{fullShare} Wv (Proc.devRef .tc main_v4))) := by
  unfold StableHlo.held tailT
  rw [bigSep_map, bigSep_tailL]
  rfl

/-- Each of the four lines touches only those buffers. -/
theorem hostOps1_sub_tail :
    ∀ ops ∈ ([hostOps1] : List (List (HloOp τ sig (Elt F)))), ∀ op ∈ ops, op.bufs ⊆ tailT := by
  intro ops hops op hop
  rw [List.mem_singleton] at hops; subst hops
  simp only [List.mem_cons, List.mem_singleton, List.not_mem_nil, or_false] at hop
  rcases hop with rfl | rfl | rfl | rfl
  · rw [StableHlo.nullary_bufs]; intro x hx
    rw [Finset.mem_singleton] at hx; subst hx; exact mem_tailT _ (by decide)
  · rw [StableHlo.binary_bufs]; intro x hx
    simp only [Finset.mem_insert, Finset.mem_singleton] at hx
    rcases hx with rfl | rfl | rfl <;> exact mem_tailT _ (by decide)
  · rw [StableHlo.nullary_bufs]; intro x hx
    rw [Finset.mem_singleton] at hx; subst hx; exact mem_tailT _ (by decide)
  · rw [StableHlo.binary_bufs]; intro x hx
    simp only [Finset.mem_insert, Finset.mem_singleton] at hx
    rcases hx with rfl | rfl | rfl <;> exact mem_tailT _ (by decide)

theorem hostOps1_fresh_tail :
    ∀ ops ∈ ([hostOps1] : List (List (HloOp τ sig (Elt F)))), ∀ op ∈ ops, op.fresh = ∅ := by
  intro ops hops op hop
  rw [List.mem_singleton] at hops; subst hops
  exact (List.forall_iff_forall_mem.mp hostOps1_fresh) op hop

/-- None of the four lines writes the region's result. -/
theorem hostOps1_keep_out :
    ∀ op ∈ ([hostOps1] : List (List (HloOp τ sig (Elt F)))).flatten, Proc.devRef (τ := τ) .tc main_v2 ∉ op.writes := by
  intro op hop
  simp only [List.flatten_cons, List.flatten_nil, List.append_nil, List.mem_cons, List.mem_singleton, List.not_mem_nil, or_false] at hop
  rcases hop with rfl | rfl | rfl | rfl
  · rw [StableHlo.nullary_writes, Finset.mem_singleton]; exact StableHlo.devRef_ne_of_ne (by decide)
  · rw [StableHlo.binary_writes, Finset.mem_singleton]; exact StableHlo.devRef_ne_of_ne (by decide)
  · rw [StableHlo.nullary_writes, Finset.mem_singleton]; exact StableHlo.devRef_ne_of_ne (by decide)
  · rw [StableHlo.binary_writes, Finset.mem_singleton]; exact StableHlo.devRef_ne_of_ne (by decide)

set_option backward.isDefEq.respectTransparency.types false in
/-- The mean's four lines run from the region's exit. They touch the region's result, which they only read, and the
    buffers that bypass the region; the four input windows' pieces of the arrays stay aside. The result comes back
    as the region left it, the bypassing buffers at the lines' contents. -/
theorem tail_mean (c : Dev nD) (dat : Dat τ (Elt F) Unit ℕ (UR sig nD τ) ℕ cfg0 c) (𝒱₀ : Variants) (Q' : PUnit → sProp 𝕄) :
    iprop((iprop(dat.arrays (fun w => dat.arrAt w cfg0.N)
              ∗ Pipeline.unscopedRest spec0 c (fun b => StableHlo.after ([hostOps1] : List (List (HloOp τ sig (Elt F)))).flatten
                  (Pipeline.withArrays spec0 c (V0 m c) (fun w => dat.arrAt w cfg0.N)) (Proc.devRef .tc b))) -∗ Q' ⟨⟩)
        ∗ boundary (c : Thread nD τ) ∗ dat.arrays (fun w => dat.arrAt w cfg0.N) ∗ Pipeline.unscopedRest spec0 c (V m c))
      ⊢ wp frame (wpE (Pipeline.defs (fun q => Cfg.toPCfg (Val := Elt F) (cfgs q)) defs₀) (Variants.lift 𝒱₀) (c : Thread nD τ) none)
          Set.univ (Pipeline.chain ([hostOps1].map StableHlo.seq)) Q' := by
  classical
  have hA4 : ((cfg0.win 4).arr.view.loc (c : Thread nD τ) ↦[(cfg0.win 4).arr.view.set]{dat.share 4} dat.arrAt 4 cfg0.N : sProp 𝕄)
      = (((c : Thread nD τ).loc main_v2) ↦{fullShare} dat.arrAt 4 cfg0.N) := by
    rw [(arr_whole0 4).set_eq_univ]; rfl
  have hW : (StableHlo.held (c : Thread nD τ) tailT (Pipeline.withArrays spec0 c (V0 m c) (fun w => dat.arrAt w cfg0.N)) : sProp 𝕄)
      = iprop((((c : Thread nD τ).loc main_v2) ↦{fullShare} dat.arrAt 4 cfg0.N)
          ∗ (((c : Thread nD τ).loc main_arg1) ↦{fullShare} V m c main_arg1)
          ∗ (((c : Thread nD τ).loc main_cst) ↦{fullShare} V m c main_cst)
          ∗ (((c : Thread nD τ).loc main_v3) ↦{fullShare} V m c main_v3)
          ∗ (((c : Thread nD τ).loc main_cst_0) ↦{fullShare} V m c main_cst_0)
          ∗ (((c : Thread nD τ).loc main_v4) ↦{fullShare} V m c main_v4)) := by
    rw [held_tailT, withArrays_out, withArrays_arg1, withArrays_cst, withArrays_v3, withArrays_cst_0, withArrays_v4]
  have hW' : (StableHlo.held (c : Thread nD τ) tailT (StableHlo.after ([hostOps1] : List (List (HloOp τ sig (Elt F)))).flatten
        (Pipeline.withArrays spec0 c (V0 m c) (fun w => dat.arrAt w cfg0.N))) : sProp 𝕄)
      = iprop((((c : Thread nD τ).loc main_v2) ↦{fullShare} dat.arrAt 4 cfg0.N)
          ∗ (((c : Thread nD τ).loc main_arg1) ↦{fullShare} StableHlo.after ([hostOps1] : List (List (HloOp τ sig (Elt F)))).flatten
              (Pipeline.withArrays spec0 c (V0 m c) (fun w => dat.arrAt w cfg0.N)) (Proc.devRef .tc main_arg1))
          ∗ (((c : Thread nD τ).loc main_cst) ↦{fullShare} StableHlo.after ([hostOps1] : List (List (HloOp τ sig (Elt F)))).flatten
              (Pipeline.withArrays spec0 c (V0 m c) (fun w => dat.arrAt w cfg0.N)) (Proc.devRef .tc main_cst))
          ∗ (((c : Thread nD τ).loc main_v3) ↦{fullShare} StableHlo.after ([hostOps1] : List (List (HloOp τ sig (Elt F)))).flatten
              (Pipeline.withArrays spec0 c (V0 m c) (fun w => dat.arrAt w cfg0.N)) (Proc.devRef .tc main_v3))
          ∗ (((c : Thread nD τ).loc main_cst_0) ↦{fullShare} StableHlo.after ([hostOps1] : List (List (HloOp τ sig (Elt F)))).flatten
              (Pipeline.withArrays spec0 c (V0 m c) (fun w => dat.arrAt w cfg0.N)) (Proc.devRef .tc main_cst_0))
          ∗ (((c : Thread nD τ).loc main_v4) ↦{fullShare} StableHlo.after ([hostOps1] : List (List (HloOp τ sig (Elt F)))).flatten
              (Pipeline.withArrays spec0 c (V0 m c) (fun w => dat.arrAt w cfg0.N)) (Proc.devRef .tc main_v4))) := by
    rw [held_tailT, StableHlo.after_of_forall_not_mem _ _ hostOps1_keep_out, withArrays_out]
  unfold Dat.arrays
  rw [bigSep_W0, unscopedRest0_eq, unscopedRest0_eq, hA4, ← List.append_nil (List.map StableHlo.seq [hostOps1])]
  iintro ⟨Hk, Hb, ⟨A0, A1, A2, A3, A4⟩, ⟨R1, R2, R3, R4, R5⟩⟩
  iapply (Pipeline.wp_seqs_then (fun q => Cfg.toPCfg (Val := Elt F) (cfgs q)) defs₀ 𝒱₀ c tailT [] [hostOps1]
    hostOps1_sub_tail hostOps1_fresh_tail (Pipeline.withArrays spec0 c (V0 m c) (fun w => dat.arrAt w cfg0.N))) $$ [Hb A4 R1 R2 R3 R4 R5]
  · rw [hW]
    isplitl [Hb]; · iexact Hb
    isplitl [A4]; · iexact A4
    isplitl [R1]; · iexact R1
    isplitl [R2]; · iexact R2
    isplitl [R3]; · iexact R3
    isplitl [R4]; · iexact R4
    iexact R5
  iintro Hb
  rw [Pipeline.chain_nil, wp_pure, hW']
  imodintro
  iapply Hk
  icases Hb with ⟨-, H4, S1, S2, S3, S4, S5⟩
  isplitl [A0 A1 A2 A3 H4]
  · isplitl [A0]; · iexact A0
    isplitl [A1]; · iexact A1
    isplitl [A2]; · iexact A2
    isplitl [A3]; · iexact A3
    iexact H4
  · isplitl [S1]; · iexact S1
    isplitl [S2]; · iexact S2
    isplitl [S3]; · iexact S3
    isplitl [S4]; · iexact S4
    iexact S5

/-! ## The frame run -/

set_option backward.isDefEq.respectTransparency.types false in
/-- The frame run of the program: the launch hands the region the arrays with the data array's share split between
    its two windows, the region runs the body at every grid point, and the mean's four lines run from its exit. Every
    array ends at what the proof data compute, every bypassing buffer at the lines' contents. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats ()
    cellOf_inj 0 winFacts₀0 (Pipeline.OwnSemFacts.none spec0) (Pipeline.PreFacts.none spec0) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats 0 c) (hq0 c) (hq1 c) (hq2 c) (hq3 c) (V m c) _ fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (Pipeline.afterTail₀ cfgs dats 0 (V0 m) [hostOps1] c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_mean m c (dats 0 c) Variants.none Q')
    (QY := fun c s => ∀ b ∈ Pipeline.restRefs sig spec0,
      s.mem ((c : Thread nD τ).loc b) = Pipeline.afterTail₀ cfgs dats 0 (V0 m) [hostOps1] c b)
    (hY := fun c s' => by
      iintro ⟨-, HU, HSI⟩
      unfold Pipeline.unscopedRest
      imodintro
      iapply (pointsTo_read_all (Pipeline.restRefs sig spec0) (fun b => (c : Thread nD τ).loc b)
        (Pipeline.afterTail₀ cfgs dats 0 (V0 m) [hostOps1] c) s')
      isplitl [HU] <;> iassumption)
    (hQ := fun s h c => ⟨(h c).1, (h c).2.2⟩)

/-! ## The frame from the frame run -/

/-- Neither reshape writes the data array. -/
theorem hostOps0_keep_arg0 :
    ∀ op ∈ ([hostOps0] : List (List (HloOp τ sig (Elt F)))).flatten, Proc.devRef (τ := τ) .tc main_arg0 ∉ op.writes := by
  intro op hop
  simp only [List.flatten_cons, List.flatten_nil, List.append_nil, List.mem_cons, List.mem_singleton, List.not_mem_nil, or_false] at hop
  rcases hop with rfl | rfl
  · rw [StableHlo.reshape_writes, Finset.mem_singleton]; exact StableHlo.devRef_ne_of_ne (by decide)
  · rw [StableHlo.reshape_writes, Finset.mem_singleton]; exact StableHlo.devRef_ne_of_ne (by decide)

/-- Neither reshape writes the label vector it reads. -/
theorem hostOps0_keep_arg1 :
    ∀ op ∈ ([hostOps0] : List (List (HloOp τ sig (Elt F)))).flatten, Proc.devRef (τ := τ) .tc main_arg1 ∉ op.writes := by
  intro op hop
  simp only [List.flatten_cons, List.flatten_nil, List.append_nil, List.mem_cons, List.mem_singleton, List.not_mem_nil, or_false] at hop
  rcases hop with rfl | rfl
  · rw [StableHlo.reshape_writes, Finset.mem_singleton]; exact StableHlo.devRef_ne_of_ne (by decide)
  · rw [StableHlo.reshape_writes, Finset.mem_singleton]; exact StableHlo.devRef_ne_of_ne (by decide)

/-- None of the mean's four lines writes the label vector. -/
theorem hostOps1_keep_arg1 :
    ∀ op ∈ ([hostOps1] : List (List (HloOp τ sig (Elt F)))).flatten, Proc.devRef (τ := τ) .tc main_arg1 ∉ op.writes := by
  intro op hop
  simp only [List.flatten_cons, List.flatten_nil, List.append_nil, List.mem_cons, List.mem_singleton, List.not_mem_nil, or_false] at hop
  rcases hop with rfl | rfl | rfl | rfl
  · rw [StableHlo.nullary_writes, Finset.mem_singleton]; exact StableHlo.devRef_ne_of_ne (by decide)
  · rw [StableHlo.binary_writes, Finset.mem_singleton]; exact StableHlo.devRef_ne_of_ne (by decide)
  · rw [StableHlo.nullary_writes, Finset.mem_singleton]; exact StableHlo.devRef_ne_of_ne (by decide)
  · rw [StableHlo.binary_writes, Finset.mem_singleton]; exact StableHlo.devRef_ne_of_ne (by decide)

/-- The region finds the data array as the launch left it. -/
theorem V_main_arg0 (c : Dev nD) : V m c main_arg0 = m ((c : Thread nD τ).loc main_arg0) :=
  StableHlo.after_of_forall_not_mem _ _ hostOps0_keep_arg0

/-- And the label vector. -/
theorem V_main_arg1 (c : Dev nD) : V m c main_arg1 = m ((c : Thread nD τ).loc main_arg1) :=
  StableHlo.after_of_forall_not_mem _ _ hostOps0_keep_arg1

/-- After the mean's lines the label vector is still as the launch left it. -/
theorem afterTail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem _ _ hostOps1_keep_arg1]
  exact (withArrays_arg1 c (V0 m c) _).trans (V_main_arg1 m c)

/-- The frame from a frame run: both argument arrays end as the launch left them. The data array is an input window's
    array, which the region never writes; the label vector bypasses the region and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 rfl (by decide))).trans (afterTail_arg1 m dats c)⟩) h

end Cert.KernelIdeal.Fr

end
-- ==== Proof.Pieces.lean ====
/-
  What each kind of point leaves in the scratch columns and the output block, as the body's arithmetic applied to the
  point's four input blocks and to what the columns held before: the stores the runs found, read back.

  An interior or last point leaves in each column the column plus this tile's partial row sum (the payloads that end in
  an addition); a row's first point leaves the same over the zero column it has just stored; the last point also leaves in
  the output block the margin loss of the four columns it has just completed.
-/
import proofs.«157812_j86157043958222_1_alg».proof.Proof.FrameKernelIdealSteps
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

/-- A whole scratch column read back through its own view. -/
theorem scr0_read (h : (Memref.whole cc0_scratch0 : Memref sig .tc .vmem S512x1 .f32).IsWhole) (X : S512x1.Idx → Elt F .f32) :
    View.read (Elt F) (View.whole cc0_scratch0 : View sig .tc .vmem S512x1 .f32) (h.unread X) = X := h.read_unread X
theorem scr1_read (h : (Memref.whole cc0_scratch1 : Memref sig .tc .vmem S512x1 .f32).IsWhole) (X : S512x1.Idx → Elt F .f32) :
    View.read (Elt F) (View.whole cc0_scratch1 : View sig .tc .vmem S512x1 .f32) (h.unread X) = X := h.read_unread X
theorem scr2_read (h : (Memref.whole cc0_scratch2 : Memref sig .tc .vmem S512x1 .f32).IsWhole) (X : S512x1.Idx → Elt F .f32) :
    View.read (Elt F) (View.whole cc0_scratch2 : View sig .tc .vmem S512x1 .f32) (h.unread X) = X := h.read_unread X
theorem scr3_read (h : (Memref.whole cc0_scratch3 : Memref sig .tc .vmem S512x1 .f32).IsWhole) (X : S512x1.Idx → Elt F .f32) :
    View.read (Elt F) (View.whole cc0_scratch3 : View sig .tc .vmem S512x1 .f32) (h.unread X) = X := h.read_unread X

/-! ## An interior point -/
theorem stepB_s0 (c : Dev nD) (t : Fin cfg0.N) (h0 : ¬t.val % 8 = 0) (h1 : ¬t.val % 8 = 7) (s : Scr F) :
    (stepB m c t h0 h1 s).2.1 = k0_pay1 (k0_pay12 (iblk m c 0 t) (iblk m c 1 t) (iblk m c 2 t) (iblk m c 3 t) s.1) := by
  unfold stepB; dsimp only
  rw [View.read_writes_junk_eq_canon]
  unfold runB kernelRun0_B
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepB_s1 (c : Dev nD) (t : Fin cfg0.N) (h0 : ¬t.val % 8 = 0) (h1 : ¬t.val % 8 = 7) (s : Scr F) :
    (stepB m c t h0 h1 s).2.2.1 = k0_pay2 (k0_pay11 (iblk m c 2 t) (iblk m c 3 t)) s.2.1 := by
  unfold stepB; dsimp only
  rw [View.read_writes_junk_eq_canon]
  unfold runB kernelRun0_B
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepB_s2 (c : Dev nD) (t : Fin cfg0.N) (h0 : ¬t.val % 8 = 0) (h1 : ¬t.val % 8 = 7) (s : Scr F) :
    (stepB m c t h0 h1 s).2.2.2.1 = k0_pay3 (k0_pay10 (iblk m c 0 t) (iblk m c 1 t)) (k0_pay11 (iblk m c 2 t) (iblk m c 3 t)) s.2.2.1 := by
  unfold stepB; dsimp only
  rw [View.read_writes_junk_eq_canon]
  unfold runB kernelRun0_B
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepB_s3 (c : Dev nD) (t : Fin cfg0.N) (h0 : ¬t.val % 8 = 0) (h1 : ¬t.val % 8 = 7) (s : Scr F) :
    (stepB m c t h0 h1 s).2.2.2.2 = k0_pay4 (k0_pay11 (iblk m c 2 t) (iblk m c 3 t)) s.2.2.2 := by
  unfold stepB; dsimp only
  rw [View.read_writes_junk_eq_canon]
  unfold runB kernelRun0_B
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

/-! ## A row's first point -/
theorem stepA_s0 (c : Dev nD) (t : Fin cfg0.N) (h0 : t.val % 8 = 0) (h1 : ¬t.val % 8 = 7) :
    (stepA m c t h0 h1).2.1 = k0_pay1 (k0_pay12 (iblk m c 0 t) (iblk m c 1 t) (iblk m c 2 t) (iblk m c 3 t) k0_pay6) := by
  unfold stepA; dsimp only
  rw [View.read_writes_junk_eq_canon]
  unfold runA kernelRun0_A
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepA_s1 (c : Dev nD) (t : Fin cfg0.N) (h0 : t.val % 8 = 0) (h1 : ¬t.val % 8 = 7) :
    (stepA m c t h0 h1).2.2.1 = k0_pay2 (k0_pay11 (iblk m c 2 t) (iblk m c 3 t)) k0_pay7 := by
  unfold stepA; dsimp only
  rw [View.read_writes_junk_eq_canon]
  unfold runA kernelRun0_A
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepA_s2 (c : Dev nD) (t : Fin cfg0.N) (h0 : t.val % 8 = 0) (h1 : ¬t.val % 8 = 7) :
    (stepA m c t h0 h1).2.2.2.1 = k0_pay3 (k0_pay10 (iblk m c 0 t) (iblk m c 1 t)) (k0_pay11 (iblk m c 2 t) (iblk m c 3 t)) k0_pay8 := by
  unfold stepA; dsimp only
  rw [View.read_writes_junk_eq_canon]
  unfold runA kernelRun0_A
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepA_s3 (c : Dev nD) (t : Fin cfg0.N) (h0 : t.val % 8 = 0) (h1 : ¬t.val % 8 = 7) :
    (stepA m c t h0 h1).2.2.2.2 = k0_pay4 (k0_pay11 (iblk m c 2 t) (iblk m c 3 t)) k0_pay9 := by
  unfold stepA; dsimp only
  rw [View.read_writes_junk_eq_canon]
  unfold runA kernelRun0_A
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

/-! ## A row's last point -/
theorem stepC_s0 (c : Dev nD) (t : Fin cfg0.N) (h0 : ¬t.val % 8 = 0) (h1 : t.val % 8 = 7) (s : Scr F) :
    (stepC m c t h0 h1 s).2.1 = k0_pay1 (k0_pay12 (iblk m c 0 t) (iblk m c 1 t) (iblk m c 2 t) (iblk m c 3 t) s.1) := by
  unfold stepC; dsimp only
  rw [View.read_writes_junk_eq_canon]
  unfold runC kernelRun0_C
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepC_s1 (c : Dev nD) (t : Fin cfg0.N) (h0 : ¬t.val % 8 = 0) (h1 : t.val % 8 = 7) (s : Scr F) :
    (stepC m c t h0 h1 s).2.2.1 = k0_pay2 (k0_pay11 (iblk m c 2 t) (iblk m c 3 t)) s.2.1 := by
  unfold stepC; dsimp only
  rw [View.read_writes_junk_eq_canon]
  unfold runC kernelRun0_C
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepC_s2 (c : Dev nD) (t : Fin cfg0.N) (h0 : ¬t.val % 8 = 0) (h1 : t.val % 8 = 7) (s : Scr F) :
    (stepC m c t h0 h1 s).2.2.2.1 = k0_pay3 (k0_pay10 (iblk m c 0 t) (iblk m c 1 t)) (k0_pay11 (iblk m c 2 t) (iblk m c 3 t)) s.2.2.1 := by
  unfold stepC; dsimp only
  rw [View.read_writes_junk_eq_canon]
  unfold runC kernelRun0_C
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepC_s3 (c : Dev nD) (t : Fin cfg0.N) (h0 : ¬t.val % 8 = 0) (h1 : t.val % 8 = 7) (s : Scr F) :
    (stepC m c t h0 h1 s).2.2.2.2 = k0_pay4 (k0_pay11 (iblk m c 2 t) (iblk m c 3 t)) s.2.2.2 := by
  unfold stepC; dsimp only
  rw [View.read_writes_junk_eq_canon]
  unfold runC kernelRun0_C
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

theorem stepC_out (c : Dev nD) (t : Fin cfg0.N) (h0 : ¬t.val % 8 = 0) (h1 : t.val % 8 = 7) (s : Scr F) :
    (stepC m c t h0 h1 s).1 = k0_pay5 (k0_pay1 (k0_pay12 (iblk m c 0 t) (iblk m c 1 t) (iblk m c 2 t) (iblk m c 3 t) s.1)) (k0_pay2 (k0_pay11 (iblk m c 2 t) (iblk m c 3 t)) s.2.1) (k0_pay3 (k0_pay10 (iblk m c 0 t) (iblk m c 1 t)) (k0_pay11 (iblk m c 2 t) (iblk m c 3 t)) s.2.2.1) (k0_pay4 (k0_pay11 (iblk m c 2 t) (iblk m c 3 t)) s.2.2.2) := by
  unfold stepC; dsimp only
  rw [View.read_writes_junk_eq_canon]
  unfold runC kernelRun0_C
  dsimp only
  sl_unfold_words
  simp only [View.readAt_eq_ld, Memref.IsWhole.read_unread, scr0_read, scr1_read, scr2_read, scr3_read,
    View.ld_unit_zero (S := S512x256) hz2, View.ld_unit_zero (S := S1024x256) hz2, View.ld_unit_zero (S := S512x1) hz2, View.ld_unit_zero (S := S1x1024) hz2,
    View.canon_unit_zero (S := S512x1) hz2, View.canon_cons_unit_zero (S := S512x1) hz2, View.readCov_unit_zero (S := S512x1) _ hz2]

end Cert.KernelIdeal.Fr

end
-- ==== Proof.Spec.lean ====
/-
  The mathematics both programs compute, as one function of the two argument arrays on the extended reals.

  For a matrix `x` of 8192 rows of 256 entries and a label vector `y` of 8192 words:
    sqn p     = Σ_k x(p,k)²                      the squared length of row p
    dotp p q  = Σ_k x(p,k)·x(q,k)                the inner product of rows p and q
    dist p q  = √ max(sqn p + sqn q − 2·dotp p q, ε)     the clamped Euclidean distance (ε the f32 nearest 1e-10)
    mask p q  = 1 if y p = y q, else 0           (a real number, so sums of it are finite)
    posSum p  = Σ_q dist p q · mask p q          posCnt p = Σ_q mask p q
    negSum p  = Σ_q dist p q · (1 − mask p q)    negCnt p = 8192 − posCnt p
    rowLoss p = max(posSum p / posCnt p − negSum p / negCnt p + ½, 0)
    loss      = (Σ_p rowLoss p) / 8192
  The quotients are the instance's total division `Ideal.div` and the root its total `Ideal.sqrt`; the float
  literals 2, ε, 1, ½, 8192 stay as their f32 words (the same word on both sides is never evaluated), only the zero
  word is read as the number 0.

  The one place the two programs differ: a program that adds `1 − mask` over the columns (`negCntK`) counts the same
  number as one that subtracts the column count of `mask` from 8192 (`negCnt`), because every `mask` value is a real
  number (`negCntK_eq`, proved in SpecLaws).
-/
import Idealize.ShloMosaic.PureOps.Ideal
import Idealize.ShloMosaic.Lib.ValueIdx

noncomputable section

open scoped BigOperators

namespace Cert.Triplet

open Idealize.ShloMosaic Idealize.ShloMosaic.ValueIdx

variable (x : (⟨2, ![8192, 256]⟩ : Shape).Idx → EReal) (y : (⟨1, ![8192]⟩ : Shape).Idx → BitVec 32)

/-- The squared length of row `p`. -/
def sqn (p : Fin 8192) : EReal := ∑ k : Fin 256, x (ix2 p k) * x (ix2 p k)

/-- The inner product of rows `p` and `q`. -/
def dotp (p q : Fin 8192) : EReal := ∑ k : Fin 256, x (ix2 p k) * x (ix2 q k)

/-- The clamped distance between rows `p` and `q`: the root of `max(|p|² + |q|² − 2 p·q, ε)`. -/
def dist (p q : Fin 8192) : EReal :=
  Ideal.sqrt (max (sqn x p + sqn x q - Ideal.ofBits .f32 0x40000000#32 * dotp x p q) (Ideal.ofBits .f32 0x2EDBE6FF#32))

/-- Whether rows `p` and `q` carry the same label, as the real number 1 or 0. -/
def maskR (p q : Fin 8192) : ℝ := if y (ix1 p) = y (ix1 q) then 1 else 0

/-- The same as an extended real. -/
def mask (p q : Fin 8192) : EReal := (maskR y p q : EReal)

/-- The sum of the distances from row `p` to the rows of its own label. -/
def posSum (p : Fin 8192) : EReal := ∑ q : Fin 8192, dist x p q * mask y p q

/-- How many rows carry row `p`'s label. -/
def posCnt (p : Fin 8192) : EReal := ∑ q : Fin 8192, mask y p q

/-- The sum of the distances from row `p` to the rows of other labels. -/
def negSum (p : Fin 8192) : EReal := ∑ q : Fin 8192, dist x p q * (Ideal.ofBits .f32 0x3F800000#32 - mask y p q)

/-- How many rows carry another label, counted as 8192 less the rows of row `p`'s label. -/
def negCnt (p : Fin 8192) : EReal := Ideal.ofBits .f32 0x46000000#32 - posCnt y p

/-- The same number counted directly, one column at a time. -/
def negCntK (p : Fin 8192) : EReal := ∑ q : Fin 8192, (Ideal.ofBits .f32 0x3F800000#32 - mask y p q)

/-- Row `p`'s margin loss from the four column sums. -/
def rowLossOf (ps pc ns nc : EReal) : EReal :=
  max (Ideal.div ps pc - Ideal.div ns nc + Ideal.ofBits .f32 0x3F000000#32) 0

/-- Row `p`'s margin loss. -/
def rowLoss (p : Fin 8192) : EReal := rowLossOf (posSum x y p) (posCnt y p) (negSum x y p) (negCnt y p)

/-- The mean of the rows' losses. -/
def loss : EReal := Ideal.div (∑ p : Fin 8192, rowLoss x y p) (Ideal.ofBits .f32 0x46000000#32)

end Cert.Triplet

end
-- ==== Proof.PayloadAt.lean ====
/-
  The idealized kernel's payloads read at one index, at the exact instance.

  Each payload is the kernel body's arithmetic as a pure term over the loaded blocks. Read at an index (p, q) of the
  512 × 1024 tile (or (p, 0) of a 512 × 1 column) and at the extended reals, it is the formula a reader expects:
  the layout operations (keepdims casts, the column-to-row transpose, the two broadcasts) pick one operand index,
  the rounding casts are the identity, a matrix product into the zero accumulator is the sum of the products over the
  contracted axis, and a row reduction from the zero word is the sum over the row.
-/
import proofs.«157812_j86157043958222_1_alg».proof.Proof.Gen.KernelIdeal.Skeleton
import proofs.«157812_j86157043958222_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## Layout operations on a column, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The short payloads -/

/-- A cast to the same shape stores what it is given. -/
theorem pay1_apply (v37 : FVec Ideal S512x1 .f32) : k0_pay1 (F := Ideal) v37 = v37 := by
  unfold k0_pay1
  exact shapeCast_self _ _

/-- The zero column: a broadcast of the zero word. -/
theorem pay6_apply (j : S512x1.Idx) : k0_pay6 (F := Ideal) j = 0 := by
  unfold k0_pay6
  rw [shapeCast_self]
  exact Ideal.ofBits_zero_f32

theorem pay7_apply (j : S512x1.Idx) : k0_pay7 (F := Ideal) j = 0 := by
  unfold k0_pay7
  rw [shapeCast_self]
  exact Ideal.ofBits_zero_f32

theorem pay8_apply (j : S512x1.Idx) : k0_pay8 (F := Ideal) j = 0 := by
  unfold k0_pay8
  rw [shapeCast_self]
  exact Ideal.ofBits_zero_f32

theorem pay9_apply (j : S512x1.Idx) : k0_pay9 (F := Ideal) j = 0 := by
  unfold k0_pay9
  rw [shapeCast_self]
  exact Ideal.ofBits_zero_f32

/-- The row loss from the four column sums, entry by entry. -/
theorem pay5_apply (v70 v71 v73 v74 : Vec Ideal S512x1 .f32) (j : S512x1.Idx) :
    k0_pay5 (F := Ideal) v70 v71 v73 v74 j = Cert.Triplet.rowLossOf (v70 j) (v71 j) (v73 j) (v74 j) := by
  unfold k0_pay5 Cert.Triplet.rowLossOf
  show max (Ideal.div (v70 j) (v71 j) - Ideal.div (v73 j) (v74 j) + Ideal.ofBits .f32 0x3F000000#32) (Ideal.ofBits .f32 0x00000000#32) = _
  rw [Ideal.ofBits_zero_f32]

/-! ## Row sums kept as a column -/

/-- A row sum from the zero word: at row `p` it is the sum of the row's entries. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same kept as a column `[a, 1]`. -/
theorem colSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

/-- The column sum added to a stored column. -/
theorem pay2_apply (v32 : FVec Ideal S512x1024 .f32) (v41 : Vec Ideal S512x1 .f32) (p : Fin 512) :
    k0_pay2 (F := Ideal) v32 v41 (ix2 p (0 : Fin 1)) = v41 (ix2 p (0 : Fin 1)) + ∑ q : Fin 1024, v32 (ix2 p q) := by
  unfold k0_pay2
  rw [shapeCast_self]
  exact congrArg (v41 (ix2 p (0 : Fin 1)) + ·) (colSum_apply v32 reduces_S512x1024_S512 (.inl rfl) rfl shapeCasts_S512_S512x1 p 0)

theorem pay3_apply (v23 v32 : FVec Ideal S512x1024 .f32) (v48 : Vec Ideal S512x1 .f32) (p : Fin 512) :
    k0_pay3 (F := Ideal) v23 v32 v48 (ix2 p (0 : Fin 1))
      = v48 (ix2 p (0 : Fin 1)) + ∑ q : Fin 1024, v23 (ix2 p q) * (Ideal.ofBits .f32 0x3F800000#32 - v32 (ix2 p q)) := by
  unfold k0_pay3
  rw [shapeCast_self]
  exact congrArg (v48 (ix2 p (0 : Fin 1)) + ·) (colSum_apply _ reduces_S512x1024_S512 (.inl rfl) rfl shapeCasts_S512_S512x1 p 0)

theorem pay4_apply (v32 : FVec Ideal S512x1024 .f32) (v58 : Vec Ideal S512x1 .f32) (p : Fin 512) :
    k0_pay4 (F := Ideal) v32 v58 (ix2 p (0 : Fin 1))
      = v58 (ix2 p (0 : Fin 1)) + ∑ q : Fin 1024, (Ideal.ofBits .f32 0x3F800000#32 - v32 (ix2 p q)) := by
  unfold k0_pay4
  rw [shapeCast_self]
  exact congrArg (v58 (ix2 p (0 : Fin 1)) + ·) (colSum_apply _ reduces_S512x1024_S512 (.inl rfl) rfl shapeCasts_S512_S512x1 p 0)

/-- The label mask: the real 1 where the row's label word equals the column's, else 0. -/
theorem pay11_apply (v24 : Vec Ideal S512x1 .i32) (v26 : Vec Ideal S1x1024 .i32) (p : Fin 512) (q : Fin 1024) :
    k0_pay11 (F := Ideal) v24 v26 (ix2 p q)
      = (((if v24 (ix2 p (0 : Fin 1)) = v26 (ix2 (0 : Fin 1) q) then 1 else 0 : ℝ)) : EReal) := by
  unfold k0_pay11
  rw [shapeCast_self, shapeCast_self]
  have e1 := broadcastTo_a1_ab_apply v24 broadcasts_S512x1_S512x1024 p q
  have e2 := broadcastTo_1b_ab_apply v26 broadcasts_S1x1024_S512x1024 p q
  show ((((IntOp.cmpi .eq (broadcastTo S512x1024 v24 broadcasts_S512x1_S512x1024 (ix2 p q))
      (broadcastTo S512x1024 v26 broadcasts_S1x1024_S512x1024 (ix2 p q))).setWidth 32).toInt : ℝ) : EReal) = _
  rw [e1, e2]
  by_cases h : v24 (ix2 p (0 : Fin 1)) = v26 (ix2 (0 : Fin 1) q)
  · rw [if_pos h, h]
    simp [IntOp.cmpi]
  · rw [if_neg h]
    have hb : (v24 (ix2 p (0 : Fin 1)) == v26 (ix2 (0 : Fin 1) q)) = false := beq_eq_false_iff_ne.mpr h
    simp [IntOp.cmpi, hb]

/-! ## The masked distance sum -/

/-- The distances of row `p` times the mask, summed over the columns, added to the stored column. -/
theorem pay12_apply (v3 : Vec Ideal S512x256 .f32) (v4 : Vec Ideal S1024x256 .f32) (v24 : Vec Ideal S512x1 .i32)
    (v26 : Vec Ideal S1x1024 .i32) (v33 : Vec Ideal S512x1 .f32) (p : Fin 512) :
    k0_pay12 (F := Ideal) v3 v4 v24 v26 v33 (ix2 p (0 : Fin 1))
      = v33 (ix2 p (0 : Fin 1)) + ∑ q : Fin 1024, k0_pay10 (F := Ideal) v3 v4 (ix2 p q) * k0_pay11 (F := Ideal) v24 v26 (ix2 p q) := by
  unfold k0_pay12
  exact congrArg (v33 (ix2 p (0 : Fin 1)) + ·)
    (colSum_apply (mulf (k0_pay10 (F := Ideal) v3 v4) (k0_pay11 (F := Ideal) v24 v26)) reduces_S512x1024_S512 (.inl rfl) rfl
      shapeCasts_S512_S512x1 p 0)

/-! ## The clamped distance -/

/-- Off the contracted axis the left operand's index is the output's row. -/
theorem lhs_row (i : S512x1024.Idx) (k : dot_S512x256_S1024x256_S512x1024_1_1_0_0_n_n.contr.Idx) :
    (dot_S512x256_S1024x256_S512x1024_1_1_0_0_n_n.lhsIdx i k 0).val = (i 0).val := by
  unfold DotDims.lhsIdx
  rw [dif_neg (show ¬(0 : Fin S512x256.rank) ∈ dot_S512x256_S1024x256_S512x1024_1_1_0_0_n_n.lhsBatch by decide),
    dif_pos (show (0 : Fin S512x256.rank) ∈ dot_S512x256_S1024x256_S512x1024_1_1_0_0_n_n.lhsNonContracting by decide)]
  rfl

/-- Off the contracted axis the right operand's index is the output's column. -/
theorem rhs_row (i : S512x1024.Idx) (k : dot_S512x256_S1024x256_S512x1024_1_1_0_0_n_n.contr.Idx) :
    (dot_S512x256_S1024x256_S512x1024_1_1_0_0_n_n.rhsIdx i k 0).val = (i 1).val := by
  unfold DotDims.rhsIdx
  rw [dif_neg (show ¬(0 : Fin S1024x256.rank) ∈ dot_S512x256_S1024x256_S512x1024_1_1_0_0_n_n.rhsBatch by decide),
    dif_pos (show (0 : Fin S1024x256.rank) ∈ dot_S512x256_S1024x256_S512x1024_1_1_0_0_n_n.rhsNonContracting by decide)]
  rfl

/-- The matrix product of the rows of two blocks into the zero accumulator: at `(p, q)` it is the inner product of row
`p` of the first and row `q` of the second. -/
theorem matmul_rows_apply {φ₁ φ₂ : FTy} (x : FVec Ideal S512x256 φ₁) (y : FVec Ideal S1024x256 φ₂) (p : Fin 512) (q : Fin 1024) :
    matmul dot_S512x256_S1024x256_S512x1024_1_1_0_0_n_n none x y (constant S512x1024 .f32 0x00000000#32) (ix2 p q)
      = ∑ k : Fin 256, x (ix2 p k) * y (ix2 q k) := by
  simp only [matmul]
  rw [Ideal.matmul_constant_zero_apply,
    ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p q)
      ((contrEquiv1 dot_S512x256_S1024x256_S512x1024_1_1_0_0_n_n 256 rfl rfl).symm k) = ix2 p k :=
    funext fun a => Fin.ext (by
      match a with
      | ⟨0, _⟩ => exact lhs_row _ _
      | ⟨1, _⟩ => exact (dot_S512x256_S1024x256_S512x1024_1_1_0_0_n_n.lhsIdx_val_of_single rfl _ _).trans hk)
  have er : dot_S512x256_S1024x256_S512x1024_1_1_0_0_n_n.rhsIdx (ix2 p q)
      ((contrEquiv1 dot_S512x256_S1024x256_S512x1024_1_1_0_0_n_n 256 rfl rfl).symm k) = ix2 q k :=
    funext fun a => Fin.ext (by
      match a with
      | ⟨0, _⟩ => exact rhs_row _ _
      | ⟨1, _⟩ => exact (dot_S512x256_S1024x256_S512x1024_1_1_0_0_n_n.rhsIdx_val_of_single rfl _ _).trans hk)
  rw [el, er]

/-- The distance formula respects equal parts. -/
theorem dist_congr {a a' b b' m m' : EReal} (c e : EReal) (ha : a = a') (hb : b = b') (hm : m = m') :
    Ideal.sqrt (max (a + b - c * m) e) = Ideal.sqrt (max (a' + b' - c * m') e) := by
  rw [ha, hb, hm]

/-- The clamped distance between row `p` of the first block and row `q` of the second. -/
theorem pay10_apply (v3 : Vec Ideal S512x256 .f32) (v4 : Vec Ideal S1024x256 .f32) (p : Fin 512) (q : Fin 1024) :
    k0_pay10 (F := Ideal) v3 v4 (ix2 p q)
      = Ideal.sqrt (max ((∑ k : Fin 256, v3 (ix2 p k) * v3 (ix2 p k)) + (∑ k : Fin 256, v4 (ix2 q k) * v4 (ix2 q k))
          - Ideal.ofBits .f32 0x40000000#32 * ∑ k : Fin 256, v3 (ix2 p k) * v4 (ix2 q k)) (Ideal.ofBits .f32 0x2EDBE6FF#32)) := by
  -- the squared length of row p, kept as a column and broadcast along the row
  have e15 : broadcastTo S512x1024
      (shapeCast S512x1 (multiReduction .add [1] S512 (mulf (F := Ideal) v3 v3) 0x00000000#32 reduces_S512x256_S512 (.inl rfl) rfl)
        shapeCasts_S512_S512x1) broadcasts_S512x1_S512x1024 (ix2 p q)
      = ∑ k : Fin 256, v3 (ix2 p k) * v3 (ix2 p k) :=
    (broadcastTo_a1_ab_apply _ broadcasts_S512x1_S512x1024 p q).trans
      (colSum_apply (mulf (F := Ideal) v3 v3) reduces_S512x256_S512 (.inl rfl) rfl shapeCasts_S512_S512x1 p 0)
  -- the squared length of row q, kept as a column, turned into a row and broadcast down the column
  have e16 : broadcastTo S512x1024
      (transpose S1x1024 [1, 0]
        (shapeCast S1024x1 (multiReduction .add [1] S1024 (mulf (F := Ideal) v4 v4) 0x00000000#32 reduces_S1024x256_S1024 (.inl rfl) rfl)
          shapeCasts_S1024_S1024x1) transposes_S1024x1_p1_0_S1x1024) broadcasts_S1x1024_S512x1024 (ix2 p q)
      = ∑ k : Fin 256, v4 (ix2 q k) * v4 (ix2 q k) :=
    (broadcastTo_1b_ab_apply _ broadcasts_S1x1024_S512x1024 p q).trans
      ((transpose_ix2_apply _ transposes_S1024x1_p1_0_S1x1024 (0 : Fin 1) q).trans
        (colSum_apply (mulf (F := Ideal) v4 v4) reduces_S1024x256_S1024 (.inl rfl) rfl shapeCasts_S1024_S1024x1 q 0))
  -- the inner product of the two rows (the rounding casts are the identity here)
  have e7 := matmul_rows_apply (truncf (F := Ideal) .bf16 v3 bitsLt_bf16_f32) (truncf (F := Ideal) .bf16 v4 bitsLt_bf16_f32) p q
  unfold k0_pay10
  exact dist_congr (Ideal.ofBits .f32 0x40000000#32) (Ideal.ofBits .f32 0x2EDBE6FF#32) e15 e16 e7

end Cert.KernelIdeal.PayloadAt

end
-- ==== Proof.BlockReads.lean ====
/-
  Each input window's block read off its array, and the arrays as the region finds them.

  The region's grid is 16 × 8; point t has row tile t / 8 and column tile t % 8. Window 0 stages rows 512·(t/8) … of
  the data, window 1 rows 1024·(t%8) … of the same array, window 2 rows 512·(t/8) … of the labels viewed as a column,
  window 3 columns 1024·(t%8) … of the labels viewed as a row. The data array is the launch's; the two label views are
  reshapes of the launch's label vector, and a reshape keeps each entry's row-major position.
-/
import proofs.«157812_j86157043958222_1_alg».proof.Proof.FrameKernelIdealCommon
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.BlockReads

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The rows and columns a point's blocks cover -/

/-- The array row under row `p` of point `t`'s row tile. -/
def rowOf (t : Fin cfg0.N) (p : Fin 512) : Fin 8192 :=
  ⟨512 * (t.val / 8) + p.val, by have hN : grid0.N = 128 := N_0; have ht : t.val < grid0.N := t.isLt; have := p.isLt; omega⟩

/-- The array row under row `q` of point `t`'s column tile. -/
def colOf (t : Fin cfg0.N) (q : Fin 1024) : Fin 8192 :=
  ⟨1024 * (t.val % 8) + q.val, by have := q.isLt; omega⟩

@[simp] theorem rowOf_val (t : Fin cfg0.N) (p : Fin 512) : (rowOf t p).val = 512 * (t.val / 8) + p.val := rfl
@[simp] theorem colOf_val (t : Fin cfg0.N) (q : Fin 1024) : (colOf t q).val = 1024 * (t.val % 8) + q.val := rfl

/-! ## The windows' index maps over the grid -/

/-- Window 0 follows the row tile, window 1 the column tile (both on the rows of the data), window 2 the row tile on
    the label column, window 3 the column tile on the label row. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8) :=
  (by decide +kernel : ∀ t : Fin grid0.N, _)

/-! ## Each block read off its array -/

/-- Window 0's block at point `t` is rows `512·(t/8) …` of the data. -/
theorem iblk0_at (c : Dev nD) (t : Fin cfg0.N) (x : S512x256.Idx) (k : S8192x256.Idx)
    (hk0 : (k 0).val = 512 * (t.val / 8) + (x 0).val) (hk1 : (k 1).val = (x 1).val) :
    (iblk m c 0 t : S512x256.Idx → Elt F .f32) x = (V m c main_arg0 : S8192x256.Idx → Elt F .f32) k := by
  obtain ⟨⟨e0, e1⟩, -, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 256 + 1 * (x 1).val = (k 1).val; rw [e1, hk1]; omega

/-- Window 1's block at point `t` is rows `1024·(t%8) …` of the data. -/
theorem iblk1_at (c : Dev nD) (t : Fin cfg0.N) (x : S1024x256.Idx) (k : S8192x256.Idx)
    (hk0 : (k 0).val = 1024 * (t.val % 8) + (x 0).val) (hk1 : (k 1).val = (x 1).val) :
    (iblk m c 1 t : S1024x256.Idx → Elt F .f32) x = (V m c main_arg0 : S8192x256.Idx → Elt F .f32) k := by
  obtain ⟨-, ⟨e0, e1⟩, -, -⟩ := idx_facts t
  unfold iblk
  rw [View.read_apply]
  show V m c main_arg0 _ = V m c main_arg0 _
  refine congrArg (V m c main_arg0) (funext fun a => Fin.ext ?_)
  match a with
  | ⟨0, _⟩ => show win0_1.index t (0 : Fin 2) * 1024 + 1 * (x 0).val = (k 0).val; rw [e0, hk0]; omega
  | ⟨1, _⟩ => show win0_1.index t (1 : Fin 2) * 256 + 1 * (x 1).val = (k 1).val; rw [e1, hk1]; omega

/-- Window 2's block at point `t` is rows `512·(t/8) …` of the label column. -/
theorem iblk2_at (c : Dev nD) (t : Fin cfg0.N) (x : S512x1.Idx) (k : S8192x1.Idx)
    (hk0 : (k 0).val = 512 * (t.val / 8) + (x 0).val) (hk1 : (k 1).val = (x 1).val) :
    (iblk m c 2 t : S512x1.Idx → Elt F .i32) x = (V m c main_v0 : S8192x1.Idx → Elt F .i32) k := by
  obtain ⟨-, -, ⟨e0, e1⟩, -⟩ := idx_facts t
  unfold iblk
  rw [View.read_apply]
  show V m c main_v0 _ = V m c main_v0 _
  refine congrArg (V m c main_v0) (funext fun a => Fin.ext ?_)
  match a with
  | ⟨0, _⟩ => show win0_2.index t (0 : Fin 2) * 512 + 1 * (x 0).val = (k 0).val; rw [e0, hk0]; omega
  | ⟨1, _⟩ => show win0_2.index t (1 : Fin 2) * 1 + 1 * (x 1).val = (k 1).val; rw [e1, hk1]; omega

/-- Window 3's block at point `t` is columns `1024·(t%8) …` of the label row. -/
theorem iblk3_at (c : Dev nD) (t : Fin cfg0.N) (x : S1x1024.Idx) (k : S1x8192.Idx)
    (hk0 : (k 0).val = (x 0).val) (hk1 : (k 1).val = 1024 * (t.val % 8) + (x 1).val) :
    (iblk m c 3 t : S1x1024.Idx → Elt F .i32) x = (V m c main_v1 : S1x8192.Idx → Elt F .i32) k := by
  obtain ⟨-, -, -, ⟨e0, e1⟩⟩ := idx_facts t
  unfold iblk
  rw [View.read_apply]
  show V m c main_v1 _ = V m c main_v1 _
  refine congrArg (V m c main_v1) (funext fun a => Fin.ext ?_)
  match a with
  | ⟨0, _⟩ => show win0_3.index t (0 : Fin 2) * 1 + 1 * (x 0).val = (k 0).val; rw [e0, hk0]; omega
  | ⟨1, _⟩ => show win0_3.index t (1 : Fin 2) * 1024 + 1 * (x 1).val = (k 1).val; rw [e1, hk1]; omega

/-! ### The same at indices written by coordinates -/

theorem iblk0_apply (c : Dev nD) (t : Fin cfg0.N) (p : Fin 512) (k : Fin 256) :
    (iblk m c 0 t : S512x256.Idx → Elt F .f32) (ix2 p k) = (V m c main_arg0 : S8192x256.Idx → Elt F .f32) (ix2 (rowOf t p) k) :=
  iblk0_at m c t (ix2 p k) (ix2 (rowOf t p) k) rfl rfl

theorem iblk1_apply (c : Dev nD) (t : Fin cfg0.N) (q : Fin 1024) (k : Fin 256) :
    (iblk m c 1 t : S1024x256.Idx → Elt F .f32) (ix2 q k) = (V m c main_arg0 : S8192x256.Idx → Elt F .f32) (ix2 (colOf t q) k) :=
  iblk1_at m c t (ix2 q k) (ix2 (colOf t q) k) rfl rfl

theorem iblk2_apply (c : Dev nD) (t : Fin cfg0.N) (p : Fin 512) :
    (iblk m c 2 t : S512x1.Idx → Elt F .i32) (ix2 p (0 : Fin 1))
      = (V m c main_v0 : S8192x1.Idx → Elt F .i32) (ix2 (rowOf t p) (0 : Fin 1)) :=
  iblk2_at m c t (ix2 p (0 : Fin 1)) (ix2 (rowOf t p) (0 : Fin 1)) rfl rfl

theorem iblk3_apply (c : Dev nD) (t : Fin cfg0.N) (q : Fin 1024) :
    (iblk m c 3 t : S1x1024.Idx → Elt F .i32) (ix2 (0 : Fin 1) q)
      = (V m c main_v1 : S1x8192.Idx → Elt F .i32) (ix2 (0 : Fin 1) (colOf t q)) :=
  iblk3_at m c t (ix2 (0 : Fin 1) q) (ix2 (0 : Fin 1) (colOf t q)) rfl rfl

/-! ## The arrays as the region finds them -/

/-- The two reshapes leave the data where the launch put it. -/
theorem V_arg0 (c : Dev nD) : V m c main_arg0 = m ((c : Thread nD τ).loc main_arg0) := by
  dsimp only [V, V0]
  simp only [hostOps0, List.flatten_cons, List.flatten_nil, List.append_nil]
  after_results

/-- … and the label vector. -/
theorem V_arg1 (c : Dev nD) : V m c main_arg1 = m ((c : Thread nD τ).loc main_arg1) := by
  dsimp only [V, V0]
  simp only [hostOps0, List.flatten_cons, List.flatten_nil, List.append_nil]
  after_results

/-- The label column is the label vector cast to `[8192, 1]`. -/
theorem V_v0 (c : Dev nD) :
    (V m c main_v0 : S8192x1.Idx → Elt F .i32)
      = shapeCast S8192x1 (m ((c : Thread nD τ).loc main_arg1) : S8192.Idx → Elt F .i32) shapeCasts_S8192_S8192x1 := by
  dsimp only [V, V0]
  simp only [hostOps0, List.flatten_cons, List.flatten_nil, List.append_nil]
  after_results
  rfl

/-- The label row is the label vector cast to `[1, 8192]`. -/
theorem V_v1 (c : Dev nD) :
    (V m c main_v1 : S1x8192.Idx → Elt F .i32)
      = shapeCast S1x8192 (m ((c : Thread nD τ).loc main_arg1) : S8192.Idx → Elt F .i32) shapeCasts_S8192_S1x8192 := by
  dsimp only [V, V0]
  simp only [hostOps0, List.flatten_cons, List.flatten_nil, List.append_nil]
  after_results
  rfl

/-- Entry `r` of the label column is label `r`. -/
theorem V_v0_apply (c : Dev nD) (r : Fin 8192) :
    (V m c main_v0 : S8192x1.Idx → Elt F .i32) (ix2 r (0 : Fin 1))
      = (m ((c : Thread nD τ).loc main_arg1) : S8192.Idx → Elt F .i32) (ix1 r) := by
  rw [V_v0]
  exact shapeCast_apply _ shapeCasts_S8192_S8192x1 (ix2 r (0 : Fin 1)) (ix1 r) (by
    rw [Shape.rowMajor_val_two, Shape.rowMajor_val_one]
    show r.val = r.val * 1 + 0
    omega)

/-- Entry `r` of the label row is label `r`. -/
theorem V_v1_apply (c : Dev nD) (r : Fin 8192) :
    (V m c main_v1 : S1x8192.Idx → Elt F .i32) (ix2 (0 : Fin 1) r)
      = (m ((c : Thread nD τ).loc main_arg1) : S8192.Idx → Elt F .i32) (ix1 r) := by
  rw [V_v1]
  exact shapeCast_a_1a_apply _ shapeCasts_S8192_S1x8192 (0 : Fin 1) r

end Cert.KernelIdeal.BlockReads

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.TileMath.lean ====
/-
  One grid point's arithmetic in terms of the whole arrays, and the accumulation over a row's eight column tiles.

  At point t the body sees rows 512·(t/8) … of the data and rows 1024·(t%8) … of the same array, with the labels of
  both. Read at (p, q) its distance payload is the clamped distance between array rows rowOf t p and colOf t q, its
  mask payload the label mask of the same two rows; so each of the four columns it carries grows, at row p, by the sum
  over this tile's 1024 columns of the corresponding term. The eight tiles of a row together are all 8192 columns.
-/
import proofs.«157812_j86157043958222_1_alg».proof.Proof.PayloadAt
import proofs.«157812_j86157043958222_1_alg».proof.Proof.BlockReads
import proofs.«157812_j86157043958222_1_alg».proof.Proof.Spec
import proofs.«157812_j86157043958222_1_alg».proof.Proof.LibTiledSum

set_option maxRecDepth 16384

noncomputable section

open scoped BigOperators

namespace Cert.KernelIdeal.TileMath

open Cert.KernelIdeal Cert.KernelIdeal.Gen Cert.KernelIdeal.Fr Cert.KernelIdeal.BlockReads Cert.KernelIdeal.PayloadAt
open Cert.Triplet Idealize.ShloMosaic Idealize.ShloMosaic.TcCoe Idealize.ShloMosaic.ValueIdx Idealize.SL.Sem

/-! ## The accumulation over the eight column tiles (no program) -/

/-- The sum of `g` over column tile `j` (zero past the last tile). -/
def tileSum (g : Fin 8192 → EReal) (j : ℕ) : EReal :=
  if h : j < 8 then ∑ l : Fin 1024, g (Cert.TiledSum.tile (by norm_num : 8 * 1024 = 8192) ⟨j, h⟩ l) else 0

/-- The columns under point `t`'s column tile are tile `t % 8`. -/
theorem sum_col_eq (g : Fin 8192 → EReal) (t : Fin cfg0.N) : ∑ q : Fin 1024, g (colOf t q) = tileSum g (t.val % 8) := by
  unfold tileSum
  rw [dif_pos (Nat.mod_lt _ (by norm_num))]
  exact Finset.sum_congr rfl fun q _ => congrArg g (Fin.ext rfl)

/-- The eight tiles together are every column. -/
theorem sum_tiles_full (g : Fin 8192 → EReal) : ∑ j ∈ Finset.range 8, tileSum g j = ∑ q : Fin 8192, g q := by
  rw [Cert.TiledSum.sum_tiles (by norm_num : 8 * 1024 = 8192) g, ← Cert.TiledSum.sum_fin_eq_range 8 (tileSum g)]
  refine Finset.sum_congr rfl fun j _ => ?_
  unfold tileSum
  rw [dif_pos j.isLt]

/-- The next point of the same grid row has the same row tile. -/
theorem rowOf_succ (t t' : Fin cfg0.N) (h : t'.val = t.val + 1) (h8 : ¬ t'.val % 8 = 0) (p : Fin 512) : rowOf t' p = rowOf t p := by
  apply Fin.ext
  simp only [rowOf_val]
  omega

/-! ## The arrays -/

variable (m : (ℓ : Loc nD τ sig) → Buf (Elt Ideal) ℓ)

/-- The data as the launch put it. -/
abbrev xOf (c : Dev nD) : (⟨2, ![8192, 256]⟩ : Shape).Idx → EReal := m ((c : Thread nD τ).loc main_arg0)
/-- The label vector as the launch put it. -/
abbrev yOf (c : Dev nD) : (⟨1, ![8192]⟩ : Shape).Idx → BitVec 32 := m ((c : Thread nD τ).loc main_arg1)

/-! ## One point's payloads at the whole arrays -/

/-- The label mask respects equal labels. -/
theorem mask_congr {a a' b b' : BitVec 32} (ha : a = a') (hb : b = b') :
    (((if a = b then 1 else 0 : ℝ)) : EReal) = (((if a' = b' then 1 else 0 : ℝ)) : EReal) := by
  rw [ha, hb]

/-- The distance payload at `(p, q)` of point `t` is the clamped distance between the two array rows under it. -/
theorem tile_dist (c : Dev nD) (t : Fin cfg0.N) (p : Fin 512) (q : Fin 1024) :
    k0_pay10 (F := Ideal) (iblk m c 0 t) (iblk m c 1 t) (ix2 p q) = Cert.Triplet.dist (xOf m c) (rowOf t p) (colOf t q) := by
  have h0 : ∀ k : Fin 256, (iblk m c 0 t : S512x256.Idx → Elt Ideal .f32) (ix2 p k) = xOf m c (ix2 (rowOf t p) k) :=
    fun k => (iblk0_apply m c t p k).trans (congrFun (V_arg0 m c) _)
  have h1 : ∀ k : Fin 256, (iblk m c 1 t : S1024x256.Idx → Elt Ideal .f32) (ix2 q k) = xOf m c (ix2 (colOf t q) k) :=
    fun k => (iblk1_apply m c t q k).trans (congrFun (V_arg0 m c) _)
  refine (pay10_apply (iblk m c 0 t) (iblk m c 1 t) p q).trans ?_
  exact dist_congr _ _
    (Finset.sum_congr rfl fun k _ => congrArg₂ (· * ·) (h0 k) (h0 k))
    (Finset.sum_congr rfl fun k _ => congrArg₂ (· * ·) (h1 k) (h1 k))
    (Finset.sum_congr rfl fun k _ => congrArg₂ (· * ·) (h0 k) (h1 k))

/-- The mask payload at `(p, q)` of point `t` is the label mask of the two array rows under it. -/
theorem tile_mask (c : Dev nD) (t : Fin cfg0.N) (p : Fin 512) (q : Fin 1024) :
    k0_pay11 (F := Ideal) (iblk m c 2 t) (iblk m c 3 t) (ix2 p q) = Cert.Triplet.mask (yOf m c) (rowOf t p) (colOf t q) := by
  have h2 : (iblk m c 2 t : S512x1.Idx → Elt Ideal .i32) (ix2 p (0 : Fin 1)) = yOf m c (ix1 (rowOf t p)) :=
    (iblk2_apply m c t p).trans (V_v0_apply m c _)
  have h3 : (iblk m c 3 t : S1x1024.Idx → Elt Ideal .i32) (ix2 (0 : Fin 1) q) = yOf m c (ix1 (colOf t q)) :=
    (iblk3_apply m c t q).trans (V_v1_apply m c _)
  refine (pay11_apply (iblk m c 2 t) (iblk m c 3 t) p q).trans ?_
  exact mask_congr h2 h3

/-! ## What one point adds to the four carried columns -/

/-- The masked distance sum grows by this tile's masked distances. -/
theorem acc_pos (c : Dev nD) (t : Fin cfg0.N) (s : Vec Ideal S512x1 .f32) (p : Fin 512) :
    k0_pay1 (F := Ideal) (k0_pay12 (iblk m c 0 t) (iblk m c 1 t) (iblk m c 2 t) (iblk m c 3 t) s) (ix2 p (0 : Fin 1))
      = s (ix2 p (0 : Fin 1))
        + ∑ q : Fin 1024, dist (xOf m c) (rowOf t p) (colOf t q) * mask (yOf m c) (rowOf t p) (colOf t q) := by
  refine (congrFun (pay1_apply _) _).trans ((pay12_apply (iblk m c 0 t) (iblk m c 1 t) (iblk m c 2 t) (iblk m c 3 t) s p).trans ?_)
  exact congrArg (s (ix2 p (0 : Fin 1)) + ·)
    (Finset.sum_congr rfl fun q _ => congrArg₂ (· * ·) (tile_dist m c t p q) (tile_mask m c t p q))

/-- The label count grows by this tile's mask. -/
theorem acc_cnt (c : Dev nD) (t : Fin cfg0.N) (s : Vec Ideal S512x1 .f32) (p : Fin 512) :
    k0_pay2 (F := Ideal) (k0_pay11 (iblk m c 2 t) (iblk m c 3 t)) s (ix2 p (0 : Fin 1))
      = s (ix2 p (0 : Fin 1)) + ∑ q : Fin 1024, mask (yOf m c) (rowOf t p) (colOf t q) := by
  refine (pay2_apply (k0_pay11 (F := Ideal) (iblk m c 2 t) (iblk m c 3 t)) s p).trans ?_
  exact congrArg (s (ix2 p (0 : Fin 1)) + ·) (Finset.sum_congr rfl fun q _ => tile_mask m c t p q)

/-- The unmasked distance sum grows by this tile's distances to the other labels. -/
theorem acc_neg (c : Dev nD) (t : Fin cfg0.N) (s : Vec Ideal S512x1 .f32) (p : Fin 512) :
    k0_pay3 (F := Ideal) (k0_pay10 (iblk m c 0 t) (iblk m c 1 t)) (k0_pay11 (iblk m c 2 t) (iblk m c 3 t)) s (ix2 p (0 : Fin 1))
      = s (ix2 p (0 : Fin 1))
        + ∑ q : Fin 1024, dist (xOf m c) (rowOf t p) (colOf t q)
            * (Ideal.ofBits .f32 0x3F800000#32 - mask (yOf m c) (rowOf t p) (colOf t q)) := by
  refine (pay3_apply (k0_pay10 (F := Ideal) (iblk m c 0 t) (iblk m c 1 t)) (k0_pay11 (F := Ideal) (iblk m c 2 t) (iblk m c 3 t)) s p).trans ?_
  exact congrArg (s (ix2 p (0 : Fin 1)) + ·)
    (Finset.sum_congr rfl fun q _ =>
      congrArg₂ (· * ·) (tile_dist m c t p q) (congrArg (Ideal.ofBits .f32 0x3F800000#32 - ·) (tile_mask m c t p q)))

/-- The other-label count grows by this tile's complement mask. -/
theorem acc_ncnt (c : Dev nD) (t : Fin cfg0.N) (s : Vec Ideal S512x1 .f32) (p : Fin 512) :
    k0_pay4 (F := Ideal) (k0_pay11 (iblk m c 2 t) (iblk m c 3 t)) s (ix2 p (0 : Fin 1))
      = s (ix2 p (0 : Fin 1)) + ∑ q : Fin 1024, (Ideal.ofBits .f32 0x3F800000#32 - mask (yOf m c) (rowOf t p) (colOf t q)) := by
  refine (pay4_apply (k0_pay11 (F := Ideal) (iblk m c 2 t) (iblk m c 3 t)) s p).trans ?_
  exact congrArg (s (ix2 p (0 : Fin 1)) + ·)
    (Finset.sum_congr rfl fun q _ => congrArg (Ideal.ofBits .f32 0x3F800000#32 - ·) (tile_mask m c t p q))

end Cert.KernelIdeal.TileMath

end
-- ==== Proof.SpecLaws.lean ====
/-
  Two laws of the specification's numbers.

  The float words for 1 and 8192 denote the real numbers 1 and 8192, and counting the rows of another label one column at
  a time, Σ_q (1 − mask p q), gives the same number as subtracting the count of row p's own label from 8192,
  8192 − Σ_q mask p q: every mask value is a real number, so both sides are the coercion of one real identity.
-/
import proofs.«157812_j86157043958222_1_alg».proof.Proof.Spec

noncomputable section

open scoped BigOperators

namespace Cert.Triplet

open Idealize.ShloMosaic Idealize.ShloMosaic.ValueIdx

/-- The word `0x3F800000` denotes the real number 1. -/
theorem ofBits_one : Ideal.ofBits .f32 0x3F800000#32 = ((1 : ℝ) : EReal) := by
  simp [Ideal.ofBits, Ideal.ieee, -EReal.coe_mul]; norm_num

/-- The word `0x46000000` denotes the real number 8192 (= 2¹³). -/
theorem ofBits_8192 : Ideal.ofBits .f32 0x46000000#32 = ((8192 : ℝ) : EReal) := by
  simp [Ideal.ofBits, Ideal.ieee, -EReal.coe_mul]; norm_num

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Counting the other labels' rows column by column is 8192 less the count of row `p`'s own label. -/
theorem negCntK_eq (y : (⟨1, ![8192]⟩ : Shape).Idx → BitVec 32) (p : Fin 8192) : negCntK y p = negCnt y p := by
  unfold negCntK negCnt posCnt mask
  rw [ofBits_one, ofBits_8192]
  simp only [← EReal.coe_sub]
  rw [← coe_finset_sum, ← coe_finset_sum, ← EReal.coe_sub, Finset.sum_sub_distrib, Finset.sum_const,
    Finset.card_univ, Fintype.card_fin]
  norm_num

end Cert.Triplet

end
-- ==== Proof.KernelValue.lean ====
/-
  What the idealized kernel's scratch columns and output block hold, point by point, in the specification's terms.

  Fix a row r of the data. The four quantities the kernel accumulates for r are sums over all 8192 columns q of
    dist r q · mask r q,   mask r q,   dist r q · (1 − mask r q),   1 − mask r q.
  The grid visits r's row tile at 8 consecutive points, one per column tile of 1024 columns; after the point of column
  tile j each scratch column holds, at r's position, the sum of its quantity over the column tiles 0 … j. This is an
  induction on the grid position: a row's first point starts from the zero it has just stored, every other point adds
  its tile's sum to what the point before left (the same row tile, the next column tile). After column tile 7 the four
  sums are complete, and the output block holds the row's margin loss computed from them — where the kernel's count of
  the other-label rows, summed one column at a time, is the specification's 8192 less the same-label count.
-/
import proofs.«157812_j86157043958222_1_alg».proof.Proof.FrameKernelIdealBody
import proofs.«157812_j86157043958222_1_alg».proof.Proof.Pieces
import proofs.«157812_j86157043958222_1_alg».proof.Proof.TileMath
import proofs.«157812_j86157043958222_1_alg».proof.Proof.SpecLaws

set_option maxRecDepth 16384

noncomputable section

open scoped BigOperators

namespace Cert.KernelIdeal.KValue

open Cert.KernelIdeal Cert.KernelIdeal.Gen Cert.KernelIdeal.Fr Cert.KernelIdeal.BlockReads Cert.KernelIdeal.PayloadAt Cert.KernelIdeal.TileMath
open Cert.Triplet Idealize.ShloMosaic Idealize.ShloMosaic.TcCoe Idealize.ShloMosaic.ValueIdx

variable (m : (ℓ : Loc nD τ sig) → Buf (Elt Ideal) ℓ) (c : Dev nD)

/-- The four summands for row `r` at column `q`. -/
def gPos (r q : Fin 8192) : EReal := dist (xOf m c) r q * mask (yOf m c) r q
def gCnt (r q : Fin 8192) : EReal := mask (yOf m c) r q
def gNeg (r q : Fin 8192) : EReal := dist (xOf m c) r q * (Ideal.ofBits .f32 0x3F800000#32 - mask (yOf m c) r q)
def gNcnt (r q : Fin 8192) : EReal := Ideal.ofBits .f32 0x3F800000#32 - mask (yOf m c) r q

/-- The sum of `g` over the column tiles `0 … j`. -/
def part (g : Fin 8192 → EReal) (j : ℕ) : EReal := ∑ j' ∈ Finset.range (j + 1), tileSum g j'

theorem part_zero (g : Fin 8192 → EReal) : part g 0 = tileSum g 0 := by
  unfold part; rw [Finset.sum_range_one]

theorem part_succ (g : Fin 8192 → EReal) (j : ℕ) : part g (j + 1) = part g j + tileSum g (j + 1) := by
  unfold part; rw [Finset.sum_range_succ]

theorem part_seven (g : Fin 8192 → EReal) : part g 7 = ∑ q : Fin 8192, g q := by
  unfold part; exact sum_tiles_full g

/-- The four scratch columns hold, at every row of the tile, the partial sums up to the point's column tile. -/
def Good (t : Fin cfg0.N) (s : Scr Ideal) : Prop := ∀ p : Fin 512,
  (s.1 : S512x1.Idx → EReal) (ix2 p (0 : Fin 1)) = part (gPos m c (rowOf t p)) (t.val % 8)
  ∧ (s.2.1 : S512x1.Idx → EReal) (ix2 p (0 : Fin 1)) = part (gCnt m c (rowOf t p)) (t.val % 8)
  ∧ (s.2.2.1 : S512x1.Idx → EReal) (ix2 p (0 : Fin 1)) = part (gNeg m c (rowOf t p)) (t.val % 8)
  ∧ (s.2.2.2 : S512x1.Idx → EReal) (ix2 p (0 : Fin 1)) = part (gNcnt m c (rowOf t p)) (t.val % 8)

/-- A row's first point: zero plus the first tile's sums. -/
theorem stepA_good (t : Fin cfg0.N) (h0 : t.val % 8 = 0) (h1 : ¬t.val % 8 = 7) : Good m c t (stepA m c t h0 h1).2 := by
  intro p
  refine ⟨?_, ?_, ?_, ?_⟩
  · show ((stepA m c t h0 h1).2.1 : S512x1.Idx → EReal) _ = _
    rw [stepA_s0, acc_pos, pay6_apply, zero_add, h0, part_zero]
    exact sum_col_eq (gPos m c (rowOf t p)) t |>.trans (by rw [h0])
  · show ((stepA m c t h0 h1).2.2.1 : S512x1.Idx → EReal) _ = _
    rw [stepA_s1, acc_cnt, pay7_apply, zero_add, h0, part_zero]
    exact sum_col_eq (gCnt m c (rowOf t p)) t |>.trans (by rw [h0])
  · show ((stepA m c t h0 h1).2.2.2.1 : S512x1.Idx → EReal) _ = _
    rw [stepA_s2, acc_neg, pay8_apply, zero_add, h0, part_zero]
    exact sum_col_eq (gNeg m c (rowOf t p)) t |>.trans (by rw [h0])
  · show ((stepA m c t h0 h1).2.2.2.2 : S512x1.Idx → EReal) _ = _
    rw [stepA_s3, acc_ncnt, pay9_apply, zero_add, h0, part_zero]
    exact sum_col_eq (gNcnt m c (rowOf t p)) t |>.trans (by rw [h0])

/-- The arithmetic of one more column tile. -/
theorem part_step (g : Fin 8192 → EReal) (t t' : Fin cfg0.N) (ht : t.val = t'.val + 1) (h0 : ¬t.val % 8 = 0) :
    part g (t'.val % 8) + tileSum g (t.val % 8) = part g (t.val % 8) := by
  have e : t.val % 8 = t'.val % 8 + 1 := by omega
  rw [e, part_succ]

/-- An interior point adds its tile's sums to what the point before left. -/
theorem stepB_good (t t' : Fin cfg0.N) (ht : t.val = t'.val + 1) (h0 : ¬t.val % 8 = 0) (h1 : ¬t.val % 8 = 7) (s : Scr Ideal)
    (hs : Good m c t' s) : Good m c t (stepB m c t h0 h1 s).2 := by
  intro p
  obtain ⟨e0, e1, e2, e3⟩ := hs p
  have hr : rowOf t p = rowOf t' p := rowOf_succ t' t ht h0 p
  refine ⟨?_, ?_, ?_, ?_⟩
  · show ((stepB m c t h0 h1 s).2.1 : S512x1.Idx → EReal) _ = _
    rw [stepB_s0, acc_pos, e0, hr]
    exact (congrArg (_ + ·) (hr ▸ sum_col_eq (gPos m c (rowOf t p)) t)).trans (part_step _ t t' ht h0)
  · show ((stepB m c t h0 h1 s).2.2.1 : S512x1.Idx → EReal) _ = _
    rw [stepB_s1, acc_cnt, e1, hr]
    exact (congrArg (_ + ·) (hr ▸ sum_col_eq (gCnt m c (rowOf t p)) t)).trans (part_step _ t t' ht h0)
  · show ((stepB m c t h0 h1 s).2.2.2.1 : S512x1.Idx → EReal) _ = _
    rw [stepB_s2, acc_neg, e2, hr]
    exact (congrArg (_ + ·) (hr ▸ sum_col_eq (gNeg m c (rowOf t p)) t)).trans (part_step _ t t' ht h0)
  · show ((stepB m c t h0 h1 s).2.2.2.2 : S512x1.Idx → EReal) _ = _
    rw [stepB_s3, acc_ncnt, e3, hr]
    exact (congrArg (_ + ·) (hr ▸ sum_col_eq (gNcnt m c (rowOf t p)) t)).trans (part_step _ t t' ht h0)

/-- So does a row's last point. -/
theorem stepC_good (t t' : Fin cfg0.N) (ht : t.val = t'.val + 1) (h0 : ¬t.val % 8 = 0) (h1 : t.val % 8 = 7) (s : Scr Ideal)
    (hs : Good m c t' s) : Good m c t (stepC m c t h0 h1 s).2 := by
  intro p
  obtain ⟨e0, e1, e2, e3⟩ := hs p
  have hr : rowOf t p = rowOf t' p := rowOf_succ t' t ht h0 p
  refine ⟨?_, ?_, ?_, ?_⟩
  · show ((stepC m c t h0 h1 s).2.1 : S512x1.Idx → EReal) _ = _
    rw [stepC_s0, acc_pos, e0, hr]
    exact (congrArg (_ + ·) (hr ▸ sum_col_eq (gPos m c (rowOf t p)) t)).trans (part_step _ t t' ht h0)
  · show ((stepC m c t h0 h1 s).2.2.1 : S512x1.Idx → EReal) _ = _
    rw [stepC_s1, acc_cnt, e1, hr]
    exact (congrArg (_ + ·) (hr ▸ sum_col_eq (gCnt m c (rowOf t p)) t)).trans (part_step _ t t' ht h0)
  · show ((stepC m c t h0 h1 s).2.2.2.1 : S512x1.Idx → EReal) _ = _
    rw [stepC_s2, acc_neg, e2, hr]
    exact (congrArg (_ + ·) (hr ▸ sum_col_eq (gNeg m c (rowOf t p)) t)).trans (part_step _ t t' ht h0)
  · show ((stepC m c t h0 h1 s).2.2.2.2 : S512x1.Idx → EReal) _ = _
    rw [stepC_s3, acc_ncnt, e3, hr]
    exact (congrArg (_ + ·) (hr ▸ sum_col_eq (gNcnt m c (rowOf t p)) t)).trans (part_step _ t t' ht h0)

/-- After every point the scratch columns hold the partial sums: induction on the grid position. -/
theorem outs_good : ∀ (n : ℕ) (hn : n < cfg0.N), Good m c ⟨n, hn⟩ (outsAt0 m c n hn).2
  | 0, hn => by
    rw [show outsAt0 m c 0 hn = stepA m c ⟨0, hn⟩ (Nat.zero_mod _) (by decide : ¬ 0 % 8 = 7) from outsAt0_A m c ⟨0, hn⟩ (Nat.zero_mod _) (by decide : ¬ 0 % 8 = 7)]
    exact stepA_good m c ⟨0, hn⟩ _ _
  | n + 1, hn => by
    by_cases h0 : (n + 1) % 8 = 0
    · have h1 : ¬ (n + 1) % 8 = 7 := by omega
      rw [show outsAt0 m c (n + 1) hn = stepA m c ⟨n + 1, hn⟩ h0 h1 from outsAt0_A m c ⟨n + 1, hn⟩ h0 h1]
      exact stepA_good m c ⟨n + 1, hn⟩ h0 h1
    · by_cases h1 : (n + 1) % 8 = 7
      · rw [show outsAt0 m c (n + 1) hn = stepC m c ⟨n + 1, hn⟩ h0 h1 (outsAt0 m c n (Nat.lt_of_succ_lt hn)).2 from outsAt0_C m c ⟨n + 1, hn⟩ h0 h1]
        exact stepC_good m c ⟨n + 1, hn⟩ ⟨n, Nat.lt_of_succ_lt hn⟩ rfl h0 h1 _ (outs_good n _)
      · rw [show outsAt0 m c (n + 1) hn = stepB m c ⟨n + 1, hn⟩ h0 h1 (outsAt0 m c n (Nat.lt_of_succ_lt hn)).2 from outsAt0_B m c ⟨n + 1, hn⟩ h0 h1]
        exact stepB_good m c ⟨n + 1, hn⟩ ⟨n, Nat.lt_of_succ_lt hn⟩ rfl h0 h1 _ (outs_good n _)

/-- At a row's last point the output block holds the row's margin loss. -/
theorem out_row (t : Fin cfg0.N) (h7 : t.val % 8 = 7) (p : Fin 512) :
    ((outsAt0 m c t.val t.isLt).1 : S512x1.Idx → EReal) (ix2 p (0 : Fin 1)) = rowLoss (xOf m c) (yOf m c) (rowOf t p) := by
  have h0 : ¬ t.val % 8 = 0 := by omega
  have hpos : 0 < t.val := by omega
  have hg := stepC_good m c t ⟨t.val - 1, Nat.lt_of_le_of_lt (Nat.sub_le _ _) t.isLt⟩ (by show t.val = t.val - 1 + 1; omega) h0 h7
    (outsAt0 m c (t.val - 1) (Nat.lt_of_le_of_lt (Nat.sub_le _ _) t.isLt)).2 (outs_good m c _ _) p
  rw [outsAt0_C m c t h0 h7] at *
  rw [stepC_out, pay5_apply, ← stepC_s0 m c t h0 h7, ← stepC_s1 m c t h0 h7, ← stepC_s2 m c t h0 h7, ← stepC_s3 m c t h0 h7,
    hg.1, hg.2.1, hg.2.2.1, hg.2.2.2, h7, part_seven, part_seven, part_seven, part_seven]
  unfold rowLoss
  rw [← negCntK_eq]
  rfl

end Cert.KernelIdeal.KValue

end
-- ==== Proof.OutArray.lean ====
/-
  The output array after the region, from what each row's last point leaves in the output block.

  The output window's block at point t is rows 512·(t/8) … 512·(t/8) + 511 of the 8192 × 1 result, and it is written
  back exactly at the points with t % 8 = 7, one per row tile. Those 16 blocks tile the array. So if at every such
  point the block holds R (rowOf t p) at row p, the array ends holding R r at row r.
-/
import proofs.«157812_j86157043958222_1_alg».proof.Proof.FrameKernelIdealBody
import proofs.«157812_j86157043958222_1_alg».proof.Proof.BlockReads
import Idealize.ShloMosaic.Lib.Pipeline.Value
import Idealize.ShloMosaic.Lib.ValueIdx

set_option maxRecDepth 16384

noncomputable section

namespace Cert.KernelIdeal.OutArray

open Cert.KernelIdeal Cert.KernelIdeal.Gen Cert.KernelIdeal.Fr Cert.KernelIdeal.BlockReads
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The output window follows the row tile. -/
theorem idx_out : ∀ t : Fin cfg0.N, win0_4.index t (0 : Fin 2) = t.val / 8 ∧ win0_4.index t (1 : Fin 2) = 0 :=
  (by decide +kernel : ∀ t : Fin grid0.N, _)

/-- A function of the row as contents of the result array. -/
abbrev colOfRows (c : Dev nD) (R : Fin 8192 → EReal) : Buf (Elt Ideal) ((c : Thread nD τ).loc main_v2) :=
  fun i : S8192x1.Idx => R ⟨(i 0).val, (i 0).isLt⟩

/-- What a row's last point writes back is its block of that column. -/
theorem flushed_eq (c : Dev nD) (R : Fin 8192 → EReal)
    (H : ∀ t : Fin cfg0.N, t.val % 8 = 7 → ∀ p : Fin 512,
      ((outsAt0 m c t.val t.isLt).1 : S512x1.Idx → EReal) (ix2 p (0 : Fin 1)) = R (rowOf t p))
    (t : Fin cfg0.N) (hf : (cfg0.win 4).flush t = true) :
    (dats m 0 c).flushed 4 t = ((cfg0.win 4).blk t).view.read (Elt Ideal) (colOfRows c R) := by
  have h7 : t.val % 8 = 7 := (flush0_4 t).mp hf
  obtain ⟨e0, e1⟩ := idx_out t
  show (cfg0.win 4).cut (grid0.coords t) ((dats m 0 c).after 4 t) = _
  rw [after0_4]
  refine funext fun (y : S512x1.Idx) => ?_
  have hp : (y 0).val < 512 := (y 0).isLt
  have hu : (y 1).val < 1 := (y 1).isLt
  have hy : y = ix2 (⟨(y 0).val, hp⟩ : Fin 512) (0 : Fin 1) := funext fun a => Fin.ext (by
    match a with
    | ⟨0, _⟩ => rfl
    | ⟨1, _⟩ => show (y 1).val = 0; omega)
  rw [View.read_apply]
  refine (congrArg ((outsAt0 m c t.val t.isLt).1 : S512x1.Idx → EReal) hy).trans
    ((H t h7 ⟨(y 0).val, hp⟩).trans (congrArg R (Fin.ext ?_)))
  show 512 * (t.val / 8) + (y 0).val = win0_4.index t (0 : Fin 2) * 512 + 1 * (y 0).val
  rw [e0]; omega

/-- Every row of the result is under the block of its row tile's last point. -/
theorem cover (i : S8192x1.Idx) :
    ∃ t : Fin cfg0.N, (cfg0.win 4).flush t = true ∧ i ∈ ((cfg0.win 4).blk t).view.set := by
  have hN : cfg0.N = 128 := N_0
  have hi0 : (i 0).val < 8192 := (i 0).isLt
  have hi1 : (i 1).val < 1 := (i 1).isLt
  have ht : 8 * ((i 0).val / 512) + 7 < cfg0.N := by rw [hN]; omega
  refine ⟨⟨8 * ((i 0).val / 512) + 7, ht⟩, (flush0_4 _).mpr (by show (8 * ((i 0).val / 512) + 7) % 8 = 7; omega), ?_⟩
  obtain ⟨e0, e1⟩ := idx_out ⟨8 * ((i 0).val / 512) + 7, ht⟩
  have e0' : win0_4.index ⟨8 * ((i 0).val / 512) + 7, ht⟩ (0 : Fin 2) = (i 0).val / 512 := by
    rw [e0]; show (8 * ((i 0).val / 512) + 7) / 8 = (i 0).val / 512; omega
  show i ∈ ((View.whole main_v2).slice (win0_4.rect ⟨8 * ((i 0).val / 512) + 7, ht⟩)).set
  rw [View.set_slice_whole, Rect.mem_set_unit]
  intro a
  match a with
  | ⟨0, _⟩ =>
    show win0_4.index ⟨8 * ((i 0).val / 512) + 7, ht⟩ (0 : Fin 2) * 512 ≤ (i 0).val
      ∧ (i 0).val < win0_4.index ⟨8 * ((i 0).val / 512) + 7, ht⟩ (0 : Fin 2) * 512 + 512
    rw [e0']; omega
  | ⟨1, _⟩ =>
    show win0_4.index ⟨8 * ((i 0).val / 512) + 7, ht⟩ (1 : Fin 2) * 1 ≤ (i 1).val
      ∧ (i 1).val < win0_4.index ⟨8 * ((i 0).val / 512) + 7, ht⟩ (1 : Fin 2) * 1 + 1
    rw [e1]; omega

/-- If every row's last point leaves `R` of its rows in the output block, the result array ends holding `R`. -/
theorem final_out (c : Dev nD) (R : Fin 8192 → EReal)
    (H : ∀ t : Fin cfg0.N, t.val % 8 = 7 → ∀ p : Fin 512,
      ((outsAt0 m c t.val t.isLt).1 : S512x1.Idx → EReal) (ix2 p (0 : Fin 1)) = R (rowOf t p)) :
    ∀ r : Fin 8192, ((dats m 0 c).arrAt 4 cfg0.N : S8192x1.Idx → EReal) (ix2 r (0 : Fin 1)) = R r := by
  intro r
  have hfin := (dats m 0 c).arrAt_eq_of_cover 4 (colOfRows c R) (flushed_eq m c R H) cover
  exact congrFun hfin (ix2 r (0 : Fin 1))

end Cert.KernelIdeal.OutArray

end
-- ==== Proof.TailValue.lean ====
/-
  What the program's last four lines compute from the region's result.

  After the region the program adds up every element of the region's 8192 × 1 result, starting from the constant 0, and
  divides the total by the constant 8192. The total over the two-axis index set is the sum over the rows of the one
  element of each row, and the zero word is the number 0, so the final scalar is (Σ_r G r) / 8192 for any description
  G of the rows of the region's result.
-/
import proofs.«157812_j86157043958222_1_alg».proof.Proof.FrameKernelIdealLaunch
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.TailValue

open Cert.KernelIdeal Cert.KernelIdeal.Gen Cert.KernelIdeal.Fr Idealize.ShloMosaic Idealize.ShloMosaic.TcCoe Idealize.ShloMosaic.ValueIdx

/-- The sum over both axes of an 8192 × 1 array, started from the zero word, is the sum over the rows of each row's one
    element. -/
theorem total_sum (y : (⟨S8192x1, .f32⟩ : BufTy).Contents (Elt Ideal)) (G : Fin 8192 → EReal)
    (hG : ∀ r : Fin 8192, (y : S8192x1.Idx → EReal) (ix2 r (0 : Fin 1)) = G r) (i : S_.Idx) :
    (Host.reduceAdd (F := Ideal) y (constant (F := Ideal) S_ .f32 0x00000000#32) reducesTo_S8192x1_S_d0_1 h_S_ : S_.Idx → EReal) i
      = ∑ r : Fin 8192, G r := by
  simp only [Host.reduceAdd, Ideal.hostReduceAdd_def]
  rw [Ideal.hostReduceAdd_total reducesTo_S8192x1_S_d0_1 (fun b => b.elim0) y _ i]
  rw [show (constant (F := Ideal) S_ .f32 0x00000000#32) (Shape.Idx.first h_S_) = Ideal.ofBits .f32 0x00000000#32 from rfl,
    Ideal.ofBits_zero_f32, zero_add, sum_idx2]
  refine Finset.sum_congr rfl fun r _ => ?_
  rw [Fin.sum_univ_one]
  exact hG r

/-- The program's result: the total of the region's result over its rows, divided by the constant 8192. -/
theorem tail_value (m : (ℓ : Loc nD τ sig) → Buf (Elt Ideal) ℓ) (c : Dev nD)
    (dats : (p : Fin 1) → (c : Dev nD) → Pipeline.Dat τ (Elt Ideal) Unit ℕ (UR sig nD τ) ℕ (cfgs p) c)
    (G : Fin 8192 → EReal)
    (hG : ∀ r : Fin 8192, ((dats 0 c).arrAt 4 cfg0.N : S8192x1.Idx → EReal) (ix2 r (0 : Fin 1)) = G r) :
    (Pipeline.afterTail₀ cfgs dats 0 (V0 m) [hostOps1] c main_v4 : S_.Idx → EReal)
      = fun _ => Ideal.div (∑ r : Fin 8192, G r) (Ideal.ofBits .f32 0x46000000#32) := by
  unfold Pipeline.afterTail₀
  show StableHlo.after hostOps1 _ (Proc.devRef .tc main_v4) = _
  after_results
  rw [withArrays_out]
  funext i
  exact congrArg (fun s => Ideal.div s (Ideal.ofBits .f32 0x46000000#32)) (total_sum _ G hG i)

end Cert.KernelIdeal.TailValue

end
-- ==== Proof.KernelResult.lean ====
/-
  The idealized kernel's result is the specification's loss.

  The region's output array ends holding every row's margin loss (the output blocks written back at the last column
  tile of each row tile cover the array); the program's last lines sum that array and divide by 8192.
-/
import proofs.«157812_j86157043958222_1_alg».proof.Proof.KernelValue
import proofs.«157812_j86157043958222_1_alg».proof.Proof.OutArray
import proofs.«157812_j86157043958222_1_alg».proof.Proof.TailValue

noncomputable section

open scoped BigOperators

namespace Cert.KernelIdeal.KValue

open Cert.KernelIdeal Cert.KernelIdeal.Gen Cert.KernelIdeal.Fr Cert.KernelIdeal.TileMath
open Cert.Triplet Idealize.ShloMosaic Idealize.ShloMosaic.TcCoe Idealize.ShloMosaic.ValueIdx

/-- What the program's result buffer holds after the lines that follow the region: the mean of the rows' losses. -/
theorem kernel_value (m : (ℓ : Loc nD τ sig) → Buf (Elt Ideal) ℓ) (c : Dev nD) :
    (Pipeline.afterTail₀ cfgs (dats m) 0 (V0 m) [hostOps1] c main_v4 : S_.Idx → EReal)
      = fun _ => loss (xOf m c) (yOf m c) :=
  Cert.KernelIdeal.TailValue.tail_value m c (dats m) (rowLoss (xOf m c) (yOf m c))
    (Cert.KernelIdeal.OutArray.final_out m c (rowLoss (xOf m c) (yOf m c)) (fun t h7 p => out_row m c t h7 p))

end Cert.KernelIdeal.KValue

end
-- ==== Proof.RefIsSpec.lean ====
/-
  The reference program computes the specification's `loss`.

  Each stage of the reference, read at an index given by its coordinates, is one of the specification's quantities:
  the row reduction of the squared entries is `sqn`, the contraction of the matrix with its transpose is `dotp`, the
  clamped root is `dist`, the converted label comparison is `mask`, the three column reductions are `posCnt`,
  `posSum` and `negSum`, 8192 less the first is `negCnt`, the clamped margin is `rowLoss`, and the total over the
  rows divided by 8192 is `loss`. Every reduction starts from the zero word, which is the number 0.
-/
import proofs.«157812_j86157043958222_1_alg».proof.Proof.Gen.ReferenceIdeal.Read
import proofs.«157812_j86157043958222_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S8192x256, .f32⟩ : BufTy).Contents (Elt Ideal)) (x1 : (⟨S8192, .i32⟩ : BufTy).Contents (Elt Ideal))

/-! ## The squared lengths -/

/-- The row reduction of the squared entries at row `p` is `sqn p`. -/
theorem sqn_at (p : Fin 8192) : val_main_v1 (F := Ideal) x0 (ix1 p) = Cert.Triplet.sqn x0 p := by
  rw [val_main_v1_apply, val_main_cst_apply, Ideal.ofBits_def, Ideal.ofBits_zero_f32, zero_add]
  unfold Cert.Triplet.sqn
  refine Finset.sum_congr rfl fun k _ => ?_
  rw [val_main_v0_apply, Ideal.mulf_def]
  have e : idx_main_v1 (ix1 p) k = ix2 p k :=
    funext fun a => Fin.ext (by match a with | ⟨0, _⟩ => rfl | ⟨1, _⟩ => rfl)
  rw [e]

/-- The two broadcasts of the squared lengths, added, at `(p, q)`. -/
theorem sqsum_at (p q : Fin 8192) :
    val_main_v6 (F := Ideal) x0 (ix2 p q) = Cert.Triplet.sqn x0 p + Cert.Triplet.sqn x0 q := by
  rw [val_main_v6_apply, Ideal.addf_def, val_main_v4_apply, val_main_v5_apply, val_main_v2_apply, val_main_v3_apply]
  have e1 : idx_main_v2 (idx_main_v4 (ix2 p q)) = ix1 p :=
    funext fun a => Fin.ext (by match a with | ⟨0, _⟩ => rfl)
  have e2 : idx_main_v3 (idx_main_v5 (ix2 p q)) = ix1 q :=
    funext fun a => Fin.ext (by match a with | ⟨0, _⟩ => rfl)
  rw [e1, e2, sqn_at, sqn_at]

/-! ## The inner products and the distance -/

/-- The contraction of the matrix with its transpose at `(p, q)` is `dotp p q`. -/
theorem dotp_at (p q : Fin 8192) : val_main_v8 (F := Ideal) x0 (ix2 p q) = Cert.Triplet.dotp x0 p q := by
  rw [val_main_v8_apply]
  unfold Cert.Triplet.dotp
  refine Finset.sum_congr rfl fun k _ => ?_
  rw [val_main_v7_apply]
  have e1 : lidx_main_v8 (ix2 p q) k = ix2 p k :=
    funext fun a => Fin.ext (by match a with | ⟨0, _⟩ => rfl | ⟨1, _⟩ => rfl)
  have e2 : idx_main_v7 (ridx_main_v8 (ix2 p q) k) = ix2 q k :=
    funext fun a => Fin.ext (by match a with | ⟨0, _⟩ => rfl | ⟨1, _⟩ => rfl)
  rw [e1, e2]

/-- The clamped root at `(p, q)` is `dist p q`. -/
theorem dist_at (p q : Fin 8192) : val_main_v14 (F := Ideal) x0 (ix2 p q) = Cert.Triplet.dist x0 p q := by
  rw [val_main_v14_apply, Ideal.hostUnary_sqrt_def, val_main_v13_apply, Ideal.maximumf_def, val_main_v11_apply,
    Ideal.subf_def, val_main_v10_apply, Ideal.mulf_def, val_main_v9_apply, val_main_cst_0_apply, Ideal.ofBits_def,
    val_main_v12_apply, val_main_cst_1_apply, Ideal.ofBits_def, sqsum_at, dotp_at]
  rfl

/-! ## The label mask -/

/-- The converted comparison of column `q`'s label with row `p`'s is `mask p q`. -/
theorem mask_at (p q : Fin 8192) : val_main_v20 (F := Ideal) x1 (ix2 p q) = Cert.Triplet.mask x1 p q := by
  rw [val_main_v20_apply, val_main_v19_apply, val_main_v17_apply, val_main_v18_apply, val_main_v15_apply,
    val_main_v16_apply]
  have e1 : idx_main_v15 (idx_main_v17 (ix2 p q)) = ix1 q :=
    funext fun a => Fin.ext (by match a with | ⟨0, _⟩ => rfl)
  have e2 : idx_main_v16 (idx_main_v18 (ix2 p q)) = ix1 p :=
    funext fun a => Fin.ext (by match a with | ⟨0, _⟩ => rfl)
  rw [e1, e2]
  show (((IntOp.cmpi .eq (x1 (ix1 q)) (x1 (ix1 p))).toNat : ℝ) : EReal) = _
  unfold Cert.Triplet.mask Cert.Triplet.maskR
  by_cases h : x1 (ix1 p) = x1 (ix1 q)
  · rw [if_pos h, h]; simp [IntOp.cmpi]
  · have h' : ¬ x1 (ix1 q) = x1 (ix1 p) := fun e => h e.symm
    rw [if_neg h]; simp [IntOp.cmpi, h']

/-! ## The column sums -/

/-- The column index of each of the three column reductions. -/
theorem col_idx (p q : Fin 8192) : idx_main_v21 (ix1 p) q = ix2 p q :=
  funext fun a => Fin.ext (by match a with | ⟨0, _⟩ => rfl | ⟨1, _⟩ => rfl)

/-- The column reduction of the mask at row `p` is `posCnt p`. -/
theorem posCnt_at (p : Fin 8192) : val_main_v21 (F := Ideal) x1 (ix1 p) = Cert.Triplet.posCnt x1 p := by
  rw [val_main_v21_apply, val_main_cst_2_apply, Ideal.ofBits_def, Ideal.ofBits_zero_f32, zero_add]
  unfold Cert.Triplet.posCnt
  refine Finset.sum_congr rfl fun q _ => ?_
  rw [col_idx, mask_at]

/-- 8192 less that count is `negCnt p`. -/
theorem negCnt_at (p : Fin 8192) : val_main_v23 (F := Ideal) x1 (ix1 p) = Cert.Triplet.negCnt x1 p := by
  rw [val_main_v23_apply, Ideal.subf_def, val_main_v22_apply, val_main_cst_3_apply, Ideal.ofBits_def, posCnt_at]
  rfl

/-- The column reduction of distance times mask at row `p` is `posSum p`. -/
theorem posSum_at (p : Fin 8192) : val_main_v25 (F := Ideal) x0 x1 (ix1 p) = Cert.Triplet.posSum x0 x1 p := by
  rw [val_main_v25_apply, val_main_cst_4_apply, Ideal.ofBits_def, Ideal.ofBits_zero_f32, zero_add]
  unfold Cert.Triplet.posSum
  refine Finset.sum_congr rfl fun q _ => ?_
  have e : idx_main_v25 (ix1 p) q = ix2 p q :=
    funext fun a => Fin.ext (by match a with | ⟨0, _⟩ => rfl | ⟨1, _⟩ => rfl)
  rw [e, val_main_v24_apply, Ideal.mulf_def, dist_at, mask_at]

/-- The column reduction of distance times one less the mask at row `p` is `negSum p`. -/
theorem negSum_at (p : Fin 8192) : val_main_v30 (F := Ideal) x0 x1 (ix1 p) = Cert.Triplet.negSum x0 x1 p := by
  rw [val_main_v30_apply, val_main_cst_6_apply, Ideal.ofBits_def, Ideal.ofBits_zero_f32, zero_add]
  unfold Cert.Triplet.negSum
  refine Finset.sum_congr rfl fun q _ => ?_
  have e : idx_main_v30 (ix1 p) q = ix2 p q :=
    funext fun a => Fin.ext (by match a with | ⟨0, _⟩ => rfl | ⟨1, _⟩ => rfl)
  rw [e, val_main_v29_apply, Ideal.mulf_def, dist_at, val_main_v28_apply, Ideal.subf_def, val_main_v27_apply,
    val_main_cst_5_apply, Ideal.ofBits_def, mask_at]

/-! ## The rows' losses and their mean -/

/-- The clamped margin at row `p` is `rowLoss p`. -/
theorem rowLoss_at (p : Fin 8192) : val_main_v36 (F := Ideal) x0 x1 (ix1 p) = Cert.Triplet.rowLoss x0 x1 p := by
  rw [val_main_v36_apply, Ideal.maximumf_def, val_main_v34_apply, Ideal.addf_def, val_main_v32_apply, Ideal.subf_def,
    val_main_v26_apply, Ideal.hostDivf_def, val_main_v31_apply, Ideal.hostDivf_def, val_main_v33_apply,
    val_main_cst_7_apply, Ideal.ofBits_def, val_main_v35_apply, val_main_cst_8_apply, Ideal.ofBits_def,
    Ideal.ofBits_zero_f32, posSum_at, posCnt_at, negSum_at, negCnt_at]
  rfl

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The reference's result is the specification's `loss`. -/
theorem result_eq (x0 : (⟨S8192x256, .f32⟩ : BufTy).Contents (Elt Ideal)) (x1 : (⟨S8192, .i32⟩ : BufTy).Contents (Elt Ideal)) :
    Cert.ReferenceIdeal.Read.val_main_v38 (F := Ideal) x0 x1 = fun _ => Cert.Triplet.loss x0 x1 := by
  funext i
  rw [val_main_v38_apply, Ideal.hostDivf_def, val_main_cst_10_apply, Ideal.ofBits_def, val_main_v37_apply,
    val_main_cst_9_apply, Ideal.ofBits_def, Ideal.ofBits_zero_f32, zero_add, sum_idx1]
  unfold Cert.Triplet.loss
  simp only [rowLoss_at]

end Cert.ReferenceIdeal.RefValue

end
-- ==== Proof.Claims.lean ====
/-
  The five claims.

  Both kernel programs (the word-level one and its reading on the extended reals) run to the end, fault nowhere and
  leave both argument arrays as they found them: the pipelined region's body obligation holds at every grid point
  (a case split on the point's position in its row of column tiles), the region is launched with the twice-staged data
  array dealt to its two windows as two half shares, and the lines around the region never write an argument.
  The reference, a straight line of host operations, runs to its composed term.
  The idealization rewrote nothing, so it has nothing to preserve.
  On the extended reals the kernel program ends with the mean over the rows of
  max(Σ d·m / Σ m − Σ d·(1−m) / Σ (1−m) + ½, 0), the four sums accumulated column tile by column tile, and the reference
  ends with the same expression with the last denominator written 8192 − Σ m: one number, because every m is 0 or 1.
-/
import proofs.«157812_j86157043958222_1_alg».proof.Defs
import proofs.«157812_j86157043958222_1_alg».proof.Proof.FrameKernelBody
import proofs.«157812_j86157043958222_1_alg».proof.Proof.FrameKernelLaunch
import proofs.«157812_j86157043958222_1_alg».proof.Proof.FrameKernelIdealBody
import proofs.«157812_j86157043958222_1_alg».proof.Proof.FrameKernelIdealLaunch
import proofs.«157812_j86157043958222_1_alg».proof.Proof.KernelResult
import proofs.«157812_j86157043958222_1_alg».proof.Proof.RefIsSpec
import proofs.«157812_j86157043958222_1_alg».proof.Proof.Gen.ReferenceIdeal.Run
import proofs.«157812_j86157043958222_1_alg».proof.Proof.Gen.ReferenceIdeal.Read
import proofs.«157812_j86157043958222_1_alg».proof.Proof.Gen.Pre_finite_inputs

noncomputable section

namespace Cert.Proof.Claims

open Idealize.ShloMosaic Idealize.ShloMosaic.TcCoe Idealize.SL.Sem

theorem frame_p : Cert.frame_Kernel := fun m ρ _ =>
  Cert.Kernel.Fr.frame_of m ρ (Cert.Kernel.Fr.dats m) (Cert.Kernel.Fr.A_eq m) (Cert.Kernel.Fr.run_shared m ρ (Cert.Kernel.Fr.dats m) (fun c => (Cert.Kernel.Fr.body_obligation m c).loose)
    (Cert.Kernel.Fr.q0_eq m) (Cert.Kernel.Fr.q1_eq m) (Cert.Kernel.Fr.q2_eq m) (Cert.Kernel.Fr.q3_eq m) (fun _ _ => rfl)
    (Cert.Kernel.Fr.A_eq m) (Cert.Kernel.Fr.hin m) (Cert.Kernel.Fr.hout m))

theorem frame_pi : Cert.frame_KernelIdeal := fun m ρ _ =>
  Cert.KernelIdeal.Fr.frame_of m ρ (Cert.KernelIdeal.Fr.dats m) (Cert.KernelIdeal.Fr.A_eq m) (Cert.KernelIdeal.Fr.run_shared m ρ (Cert.KernelIdeal.Fr.dats m) (fun c => (Cert.KernelIdeal.Fr.body_obligation m c).loose)
    (Cert.KernelIdeal.Fr.q0_eq m) (Cert.KernelIdeal.Fr.q1_eq m) (Cert.KernelIdeal.Fr.q2_eq m) (Cert.KernelIdeal.Fr.q3_eq m) (fun _ _ => rfl)
    (Cert.KernelIdeal.Fr.A_eq m) (Cert.KernelIdeal.Fr.hin m) (Cert.KernelIdeal.Fr.hout m))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the specification's loss of the (agreeing) argument arrays. -/
theorem algebraic : Cert.algebraic_KernelIdeal_ReferenceIdeal := by
  intro m ρ m' ρ' _ hagree
  refine ⟨fun c => fun _ => Cert.Triplet.loss (Cert.KernelIdeal.TileMath.xOf m c) (Cert.KernelIdeal.TileMath.yOf m c), ?_, ?_⟩
  · refine (θ_run Cert.KernelIdeal.defs _ _).mono (fun r h c => ⟨?_, ?_, ?_⟩) (Cert.KernelIdeal.Fr.run_shared m ρ (Cert.KernelIdeal.Fr.dats m) (fun c => (Cert.KernelIdeal.Fr.body_obligation m c).loose)
    (Cert.KernelIdeal.Fr.q0_eq m) (Cert.KernelIdeal.Fr.q1_eq m) (Cert.KernelIdeal.Fr.q2_eq m) (Cert.KernelIdeal.Fr.q3_eq m) (fun _ _ => rfl)
    (Cert.KernelIdeal.Fr.A_eq m) (Cert.KernelIdeal.Fr.hin m) (Cert.KernelIdeal.Fr.hout m))
    · exact ((h c).2 Cert.KernelIdeal.main_v4 (Pipeline.mem_restRefs_of Cert.KernelIdeal.main_v4 rfl (by decide))).trans
        (Cert.KernelIdeal.KValue.kernel_value m c)
    · exact ((h c).1 0).trans (((Cert.KernelIdeal.Fr.dats m 0 c).arrAt_in 0 rfl _).trans
        ((Cert.KernelIdeal.Fr.A_eq m c 0).trans (Cert.KernelIdeal.Fr.V_main_arg0 m c)))
    · exact ((h c).2 Cert.KernelIdeal.main_arg1 (Pipeline.mem_restRefs_of Cert.KernelIdeal.main_arg1 rfl (by decide))).trans
        (Cert.KernelIdeal.Fr.afterTail_arg1 m (Cert.KernelIdeal.Fr.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v38_eq, Cert.ReferenceIdeal.RefValue.result_eq, (hagree c).1, (hagree c).2]
    rfl

end Cert.Proof.Claims

end
-- ==== Proof.lean ====
/-
  The proof of the certificate's claim: the witnesses of the programs' stated side conditions, then the five claims
  (three frames, the idealization's preservation, and the equality of the two idealized programs' results), each proved
  in Proof/Claims.lean from the modules it names.
-/
import proofs.«157812_j86157043958222_1_alg».proof.Defs
import proofs.«157812_j86157043958222_1_alg».proof.Proof.Gen.Kernel
import proofs.«157812_j86157043958222_1_alg».proof.Proof.Gen.KernelIdeal
import proofs.«157812_j86157043958222_1_alg».proof.Proof.Gen.ReferenceIdeal
import proofs.«157812_j86157043958222_1_alg».proof.Proof.Gen.Pre_finite_inputs
import proofs.«157812_j86157043958222_1_alg».proof.Proof.Gen.ReferenceIdeal.Run
import proofs.«157812_j86157043958222_1_alg».proof.Proof.Gen.ReferenceIdeal.Read
import proofs.«157812_j86157043958222_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
